-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x40 .f32) (main_arg12 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg11
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x40 .f32) (main_arg12 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x40 .f32) (main_arg12 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩
abbrev S5000 : Shape := ⟨1, ![5000]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 89
  | .vmem => 48
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x40, .f32⟩
  | .hbm, ⟨12, _⟩ => ⟨S40, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S100000x128, .f32⟩
  | .hbm, ⟨69, _⟩ => ⟨S100000x40, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x40, .f32⟩
  | .hbm, ⟨79, _⟩ => ⟨S_, .f32⟩
  | .hbm, ⟨80, _⟩ => ⟨S100000x40, .f32⟩
  | .hbm, ⟨81, _⟩ => ⟨S1600000x1, .i32⟩
  | .hbm, ⟨82, _⟩ => ⟨S100000x40, .f32⟩
  | .hbm, ⟨83, _⟩ => ⟨S1x40, .f32⟩
  | .hbm, ⟨84, _⟩ => ⟨S_, .f32⟩
  | .hbm, ⟨85, _⟩ => ⟨S1x40, .f32⟩
  | .hbm, ⟨86, _⟩ => ⟨S_, .f32⟩
  | .hbm, ⟨87, _⟩ => ⟨S1x40, .f32⟩
  | .hbm, ⟨88, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S128x40, .f32⟩
  | .local _ .vmem, ⟨37, _⟩ => ⟨S5000x40, .f32⟩
  | .local _ .vmem, ⟨38, _⟩ => ⟨S5000x40, .f32⟩
  | .local _ .vmem, ⟨39, _⟩ => ⟨S5000x40, .f32⟩
  | .local _ .vmem, ⟨40, _⟩ => ⟨S5000x40, .f32⟩
  | .local _ .vmem, ⟨41, _⟩ => ⟨S5000x1, .f32⟩
  | .local _ .vmem, ⟨42, _⟩ => ⟨S5000x1, .f32⟩
  | .local _ .vmem, ⟨43, _⟩ => ⟨S1x40, .f32⟩
  | .local _ .vmem, ⟨44, _⟩ => ⟨S1x40, .f32⟩
  | .local _ .vmem, ⟨45, _⟩ => ⟨S1x40, .f32⟩
  | .local _ .vmem, ⟨46, _⟩ => ⟨S5000x40, .f32⟩
  | .local _ .vmem, ⟨47, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_v59 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x40 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x40 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x40 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S40_S1x40 : S40.ShapeCasts S1x40
  bcast_S_S1x40 : S_.BroadcastsInDim S1x40 (![] : Fin 0 → Fin S1x40.rank)
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x40.size a ≤ S128x40.size a
  hwx4_2 : ∀ i : grid4.Coords, EltTy.bits .f32 = 32 ∨ (Rect.block (s := S128x40) S128x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S100000x40.size a
  hwx4_3 : ∀ i : grid4.Coords, EltTy.bits .f32 = 32 ∨ (Rect.block (s := S100000x40) S5000x40.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x40.size a ≤ S1x40.size a
  hwx5_3 : ∀ i : grid5.Coords, EltTy.bits .f32 = 32 ∨ (Rect.block (s := S1x40) S1x40.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x40.size a ≤ S1x40.size a
  hwx5_4 : ∀ i : grid5.Coords, EltTy.bits .f32 = 32 ∨ (Rect.block (s := S1x40) S1x40.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x40.size a ≤ S100000x40.size a
  hwx5_5 : ∀ i : grid5.Coords, EltTy.bits .f32 = 32 ∨ (Rect.block (s := S100000x40) S5000x40.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v44) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v55) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x40.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S1x40.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v59) S5000x40.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 164
  | .vmem => 0
  | .smem => 0
  | _ => 0

abbrev hbmTy0_0 (i : Nat) : BufTy := match i % 128 with
  | 0 => ⟨S100000x256, .f32⟩
  | 1 => ⟨S1600000, .i32⟩
  | 2 => ⟨S1600000, .i32⟩
  | 3 => ⟨S256x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x40, .f32⟩
  | 12 => ⟨S40, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000x1, .f32⟩
  | 32 => ⟨S100000x256, .f32⟩
  | 33 => ⟨S100000x256, .f32⟩
  | 34 => ⟨S100000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S100000x1, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000, .f32⟩
  | 56 => ⟨S100000x1, .f32⟩
  | 57 => ⟨S_, .f32⟩
  | 58 => ⟨S100000x1, .f32⟩
  | 59 => ⟨S100000x1, .f32⟩
  | 60 => ⟨S100000x128, .f32⟩
  | 61 => ⟨S100000x128, .f32⟩
  | 62 => ⟨S100000x128, .f32⟩
  | 63 => ⟨S_, .f32⟩
  | 64 => ⟨S100000, .f32⟩
  | 65 => ⟨S100000x1, .f32⟩
  | 66 => ⟨S_, .f32⟩
  | 67 => ⟨S100000x1, .f32⟩
  | 68 => ⟨S100000x1, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x1, .f32⟩
  | 76 => ⟨S100000x1, .f32⟩
  | 77 => ⟨S100000x1, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x1, .f32⟩
  | 87 => ⟨S100000x128, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S100000x1, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000, .f32⟩
  | 111 => ⟨S100000x1, .f32⟩
  | 112 => ⟨S_, .f32⟩
  | 113 => ⟨S100000x1, .f32⟩
  | 114 => ⟨S100000x1, .f32⟩
  | 115 => ⟨S100000x128, .f32⟩
  | 116 => ⟨S100000x128, .f32⟩
  | 117 => ⟨S100000x128, .f32⟩
  | 118 => ⟨S_, .f32⟩
  | 119 => ⟨S100000, .f32⟩
  | 120 => ⟨S100000x1, .f32⟩
  | 121 => ⟨S_, .f32⟩
  | 122 => ⟨S100000x1, .f32⟩
  | 123 => ⟨S100000x1, .f32⟩
  | 124 => ⟨S100000x128, .f32⟩
  | 125 => ⟨S100000x128, .f32⟩
  | 126 => ⟨S1x128, .f32⟩
  | 127 => ⟨S100000x128, .f32⟩
  | _ => ⟨S100000x256, .f32⟩

abbrev hbmTy0_1 (i : Nat) : BufTy := match i % 128 with
  | 0 => ⟨S100000x128, .f32⟩
  | 1 => ⟨S_, .f32⟩
  | 2 => ⟨S100000x1, .f32⟩
  | 3 => ⟨S100000x1, .f32⟩
  | 4 => ⟨S100000x1, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S100000x1, .f32⟩
  | 14 => ⟨S100000x128, .f32⟩
  | 15 => ⟨S100000x128, .f32⟩
  | 16 => ⟨S100000x40, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x40, .f32⟩
  | 26 => ⟨S_, .f32⟩
  | 27 => ⟨S100000x40, .f32⟩
  | 28 => ⟨S1600000x1, .i32⟩
  | 29 => ⟨S100000x40, .f32⟩
  | 30 => ⟨S100000x1, .f32⟩
  | 31 => ⟨S100000x40, .f32⟩
  | 32 => ⟨S100000x40, .f32⟩
  | 33 => ⟨S1x40, .f32⟩
  | 34 => ⟨S100000x40, .f32⟩
  | 35 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call0_cst : Ref sig .tc := ⟨.hbm, 83, rfl⟩
abbrev main_call0_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_c_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_14 : Ref sig .tc := ⟨.hbm, 109, rfl⟩
abbrev main_v78 : Ref sig .tc := ⟨.hbm, 110, rfl⟩
abbrev main_v79 : Ref sig .tc := ⟨.hbm, 111, rfl⟩
abbrev main_cst_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_16 : Ref sig .tc := ⟨.hbm, 118, rfl⟩
abbrev main_v85 : Ref sig .tc := ⟨.hbm, 119, rfl⟩
abbrev main_v86 : Ref sig .tc := ⟨.hbm, 120, rfl⟩
abbrev main_cst_17 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_call1_cst : Ref sig .tc := ⟨.hbm, 138, rfl⟩
abbrev main_call1_v0 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_19 : Ref sig .tc := ⟨.hbm, 145, rfl⟩
abbrev main_v107 : Ref sig .tc := ⟨.hbm, 146, rfl⟩
abbrev main_v108 : Ref sig .tc := ⟨.hbm, 147, rfl⟩
abbrev main_c_20 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_21 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KRun.lean ====
/-
  The idealized kernel's whole run with its result named. The program is six tiled regions among four stretches of host
  operations; the contents of every buffer at each boundary is a fold from the launch memory (Gen.W1 … Gen.W10: a
  stretch applies its operations, a region replaces its arrays by what its write-backs leave). Every weakly fair
  execution terminates without a fault, the arguments end as launched, and the result buffer ends at the last boundary's
  contents Gen.W10, which the later modules evaluate.
-/
import proofs.«181965_j14688788152987_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, every argument as launched. -/
theorem run_main : θ_run defs (onTc (τ := τ) (main (F := F))) ⟨m, fun _ => 0, ρ⟩ (fun r => ∀ c : Dev nD,
      r.2.mem ((c.tc : Thread nD τ).loc main_v59) = W10 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v59 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.Hand

end
-- ==== Proof.Spec.lean ====
/-
  The network as mathematics, over extended reals, with no program in sight.

  Three row-wise building blocks, each the value at one index (row r, column j) of a matrix with R rows:
  * scaleMatmul: every row of h is scaled by that row's entry of a one-column matrix s, and the scaled
    matrix is multiplied by W:  out(r, j) = sum over k of (h(r, k) * s(r, 0)) * W(k, j).
  * affine: every row of x is scaled by its entry of s and a one-row matrix b is added to it:
    out(r, j) = x(r, j) * s(r, 0) + b(0, j).
  * lnRelu: layer normalisation of every row followed by the positive part. With mu(r) the row's sum
    divided by 128 and var(r) the sum of squared deviations divided by 128,
    out(r, j) = max (g(0, j) * (x(r, j) - mu(r)) * rsqrt (var(r) + eps) + bt(0, j)) 0.
  The three constants (the divisor 128, eps, and the zero of the maximum) are kept as the extended reals their
  binary words denote; both programs carry the same words, so their values are never needed.

  net composes them into the three-layer graph convolution; the two neighbourhood aggregations (gather the
  rows of the edges' sources, add them into the rows of the edges' targets) and the two degree normalisations
  enter as parameters, because both programs compute them by the same host operations.
-/
import Idealize.ShloMosaic.PureOps.Ideal
import Idealize.ShloMosaic.Lib.ValueIdx

noncomputable section

open scoped BigOperators

namespace Cert.GcnSpec

open Idealize.ShloMosaic Idealize.ShloMosaic.ValueIdx

/-- An r × c matrix of extended reals. -/
abbrev Mat (r c : Nat) := FVec Ideal ⟨2, ![r, c]⟩ .f32

/-- The divisor of the two row means: the extended real of the word of 128.0. -/
abbrev c128 : EReal := Ideal.ofBits .f32 0x43000000#32
/-- The variance's offset: the extended real of the word of 1e-5 rounded to single precision. -/
abbrev cEps : EReal := Ideal.ofBits .f32 0x3727C5AC#32
/-- The lower bound of the positive part: the extended real of the zero word. -/
abbrev cZero : EReal := Ideal.ofBits .f32 0x00000000#32

/-- Rows scaled, then the matrix product. -/
def scaleMatmul {R K N : Nat} (h : Mat R K) (s : Mat R 1) (W : Mat K N) : Mat R N :=
  fun i => ∑ k : Fin K, (h (ix2 (i 0 : Fin R) k) * s (ix2 (i 0 : Fin R) (0 : Fin 1))) * W (ix2 k (i 1 : Fin N))

/-- Rows scaled, then a row added to every row. -/
def affine {R N : Nat} (x : Mat R N) (s : Mat R 1) (b : Mat 1 N) : Mat R N :=
  fun i => x (ix2 (i 0 : Fin R) (i 1 : Fin N)) * s (ix2 (i 0 : Fin R) (0 : Fin 1)) + b (ix2 (0 : Fin 1) (i 1 : Fin N))

/-- The mean of row r: its sum divided by 128. -/
def rowMean {R N : Nat} (x : Mat R N) (r : Fin R) : EReal :=
  Ideal.div (∑ j : Fin N, x (ix2 r j)) c128

/-- The variance of row r: the sum of the squared deviations from the mean, divided by 128. -/
def rowVar {R N : Nat} (x : Mat R N) (r : Fin R) : EReal :=
  Ideal.div (∑ j : Fin N, (x (ix2 r j) - rowMean x r) * (x (ix2 r j) - rowMean x r)) c128

/-- Layer normalisation of every row with gain g and offset bt, then the positive part. -/
def lnRelu {R N : Nat} (x : Mat R N) (g bt : Mat 1 N) : Mat R N :=
  fun i => max ((g (ix2 (0 : Fin 1) (i 1 : Fin N)) * (x (ix2 (i 0 : Fin R) (i 1 : Fin N)) - rowMean x (i 0 : Fin R)))
      * Ideal.rsqrt (rowVar x (i 0 : Fin R) + cEps) + bt (ix2 (0 : Fin 1) (i 1 : Fin N))) cZero

/-- The three layers. agg128 and agg40 are the neighbourhood aggregation on 128 and on 40 columns, on and inn the
    source-degree and target-degree normalisations as one-column matrices. -/
def net (agg128 : Mat 100000 128 → Mat 100000 128) (agg40 : Mat 100000 40 → Mat 100000 40) (on inn : Mat 100000 1)
    (x : Mat 100000 256) (W0 : Mat 256 128) (b0 g0 bt0 : Mat 1 128) (W1 : Mat 128 128) (b1 g1 bt1 : Mat 1 128)
    (W2 : Mat 128 40) (b2 : Mat 1 40) : Mat 100000 40 :=
  affine (agg40 (scaleMatmul
    (lnRelu (affine (agg128 (scaleMatmul
      (lnRelu (affine (agg128 (scaleMatmul x on W0)) inn b0) g0 bt0) on W1)) inn b1) g1 bt1) on W2)) inn b2

end Cert.GcnSpec

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.Pre0.lean ====
/-
  Region 0 of the kernel: every row of the input matrix is scaled by that row's entry of a one-column matrix and the
  scaled matrix is multiplied by a 256 × 128 matrix. The grid has 20 points; point t handles rows 5000·t … 5000·t + 4999.
  Here: the body's arithmetic read at an index (a sum over the contracted coordinate of scaled entries times matrix
  entries), each input block read as the rows of its array, what a point writes back as a block of the whole-array
  function scaleMatmul, and, the blocks covering all 100000 rows, the array after the region.
-/
import proofs.«181965_j14688788152987_1_alg».proof.Proof.Gen.KernelIdeal.Frame
import proofs.«181965_j14688788152987_1_alg».proof.Proof.Spec
import proofs.«181965_j14688788152987_1_alg».proof.Proof.LibMatmulAt
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

namespace Pre0

theorem hz : (![0, 0] : Fin 2 → Nat) = fun _ => 0 := funext fun a => by fin_cases a <;> rfl

/-- A one-column matrix broadcast along the columns, read at (p, k), is the column's entry at row p. -/
theorem bcast_col_apply (x : FVec Ideal S5000x1 .f32) (h : S5000x1.Broadcasts S5000x256) (p : Fin 5000) (k : Fin 256) :
    broadcastTo S5000x256 x h (ix2 p k) = x (ix2 p (0 : Fin 1)) := by
  refine broadcastTo_apply x h (ix2 p k) (ix2 p (0 : Fin 1)) fun a => ?_
  match a with
  | ⟨0, _⟩ => rfl
  | ⟨1, _⟩ => rfl

/-- The body's arithmetic at row p and column q: the sum over the contracted coordinate k of the scaled entry
    x0(p, k) · x1(p, 0) times the matrix entry x2(k, q). -/
theorem pay_apply (x0 : Vec Ideal S5000x256 .f32) (x1 : Vec Ideal S5000x1 .f32) (x2 : Vec Ideal S256x128 .f32)
    (p : Fin 5000) (q : Fin 128) :
    k0_pay1 (F := Ideal) x0 x1 x2 (ix2 p q) = ∑ k : Fin 256, (x0 (ix2 p k) * x1 (ix2 p (0 : Fin 1))) * x2 (ix2 k q) := by
  unfold k0_pay1
  refine (matmul_zero_plain_apply _ rfl none _ _ (ix2 p q)).trans ?_
  refine Finset.sum_congr rfl fun k _ => ?_
  show (x0 (ix2 p k) * broadcastTo S5000x256 (shapeCast S5000x1 x1 _) _ (ix2 p k)) * x2 (ix2 k q) = _
  rw [shapeCast_self, bcast_col_apply]

/-- The printed index maps, decided over the grid: at point t the row blocks of the input, of the scale and of the
    output are block t, and the matrix's only block is block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One block of the product from blocks of its operands: if x0 and x1 are rows 5000·n … of A0 and A1, and x2 is A2,
    the body's arithmetic at (p, q) is scaleMatmul A0 A1 A2 at (5000·n + p, q). -/
theorem pay_eq_spec (A0 : Cert.GcnSpec.Mat 100000 256) (A1 : Cert.GcnSpec.Mat 100000 1) (A2 : Cert.GcnSpec.Mat 256 128) (n : Nat)
    (x0 : Vec Ideal S5000x256 .f32) (x1 : Vec Ideal S5000x1 .f32) (x2 : Vec Ideal S256x128 .f32)
    (h0 : ∀ (y : S5000x256.Idx) (i : S100000x256.Idx), (i 0).val = 5000 * n + (y 0).val → (i 1).val = (y 1).val → x0 y = A0 i)
    (h1 : ∀ (y : S5000x1.Idx) (i : S100000x1.Idx), (i 0).val = 5000 * n + (y 0).val → (i 1).val = (y 1).val → x1 y = A1 i)
    (h2 : ∀ (y : S256x128.Idx) (i : S256x128.Idx), (i 0).val = (y 0).val → (i 1).val = (y 1).val → x2 y = A2 i)
    (j : S5000x128.Idx) (i : S100000x128.Idx) (hi0 : (i 0).val = 5000 * n + (j 0).val) (hi1 : (i 1).val = (j 1).val) :
    k0_pay1 (F := Ideal) x0 x1 x2 j = Cert.GcnSpec.scaleMatmul A0 A1 A2 i := by
  obtain ⟨p, q, rfl⟩ : ∃ (p : Fin 5000) (q : Fin 128), j = ix2 p q := ⟨j 0, j 1, eq_ix2 j⟩
  rw [pay_apply]
  unfold Cert.GcnSpec.scaleMatmul
  refine Finset.sum_congr rfl fun k _ => ?_
  rw [h0 (ix2 p k) (ix2 (i 0 : Fin 100000) k) hi0 rfl, h1 (ix2 p (0 : Fin 1)) (ix2 (i 0 : Fin 100000) (0 : Fin 1)) hi0 rfl,
    h2 (ix2 k q) (ix2 k (i 1 : Fin 128)) rfl hi1]

variable (V : (c : Dev nD) → (b : Ref sig .tc) → Buf (Elt Ideal) ((c : Thread nD τ).loc b))

/-- The input's block at point t is rows 5000·t … 5000·t + 4999 of the input. -/
theorem read0 (c : Dev nD) (t : Fin cfg0.N) (y : S5000x256.Idx) (i : S100000x256.Idx)
    (h0 : (i 0).val = 5000 * t.val + (y 0).val) (h1 : (i 1).val = (y 1).val) :
    (iblk0 V c 0 t : Vec Ideal S5000x256 .f32) y = (V c main_arg0 : S100000x256.Idx → Elt Ideal .f32) i := by
  obtain ⟨e0, e1, -⟩ := idx_facts t
  unfold iblk0
  rw [View.read_apply]
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The scale's block at point t is rows 5000·t … 5000·t + 4999 of the scale. -/
theorem read1 (c : Dev nD) (t : Fin cfg0.N) (y : S5000x1.Idx) (i : S100000x1.Idx)
    (h0 : (i 0).val = 5000 * t.val + (y 0).val) (h1 : (i 1).val = (y 1).val) :
    (iblk0 V c 1 t : Vec Ideal S5000x1 .f32) y = (V c main_v10 : S100000x1.Idx → Elt Ideal .f32) i := by
  obtain ⟨-, -, e0, e1, -⟩ := idx_facts t
  unfold iblk0
  rw [View.read_apply]
  show V c main_v10 (((cfg0.win 1).blk t).view.emb y) = V c main_v10 i
  refine congrArg (V c main_v10) (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 1 + 1 * (y 1).val = (i 1).val; rw [e1, h1]; omega

/-- The matrix's block at every point is the matrix. -/
theorem read2 (c : Dev nD) (t : Fin cfg0.N) (y : S256x128.Idx) (i : S256x128.Idx)
    (h0 : (i 0).val = (y 0).val) (h1 : (i 1).val = (y 1).val) :
    (iblk0 V c 2 t : Vec Ideal S256x128 .f32) y = (V c main_arg3 : S256x128.Idx → Elt Ideal .f32) i := by
  obtain ⟨-, -, -, -, e0, e1, -⟩ := idx_facts t
  unfold iblk0
  rw [View.read_apply]
  show V c main_arg3 (((cfg0.win 2).blk t).view.emb y) = V c main_arg3 i
  refine congrArg (V c main_arg3) (funext fun a => Fin.ext ?_)
  match a with
  | ⟨0, _⟩ => show win0_2.index t (0 : Fin 2) * 256 + 1 * (y 0).val = (i 0).val; rw [e0, h0]; omega
  | ⟨1, _⟩ => show win0_2.index t (1 : Fin 2) * 128 + 1 * (y 1).val = (i 1).val; rw [e1, h1]; omega

/-- What point t writes back is block t of scaleMatmul of the three arrays as the region finds them. -/
theorem flushed_eq (c : Dev nD) (t : Fin cfg0.N) :
    (dat0 (F := Ideal) V c).flushed 3 t = ((cfg0.win 3).blk t).view.read (Elt Ideal)
      (Cert.GcnSpec.scaleMatmul (V c main_arg0) (V c main_v10) (V c main_arg3)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x128) hz]
  obtain ⟨-, -, -, -, -, -, e0, e1⟩ := idx_facts t
  funext j
  rw [View.read_apply]
  refine pay_eq_spec (V c main_arg0) (V c main_v10) (V c main_arg3) t.val (iblk0 V c 0 t) (iblk0 V c 1 t) (iblk0 V c 2 t)
    (read0 V c t) (read1 V c t) (read2 V c t) j (((cfg0.win 3).blk t).view.emb j) ?_ ?_
  · show win0_3.index t (0 : Fin 2) * 5000 + 1 * (j 0).val = 5000 * t.val + (j 0).val; rw [e0]; omega
  · show win0_3.index t (1 : Fin 2) * 128 + 1 * (j 1).val = (j 1).val; rw [e1]; omega

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Row r of the output lies in the block of point r / 5000, and every point writes its block back. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk]
  obtain ⟨-, -, -, -, -, -, e0, e1⟩ := idx_facts ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e1]; omega

end Pre0

/-- The array region 0 leaves: scaleMatmul of the input, the scale and the matrix as the region finds them. -/
theorem final0 (V : (c : Dev nD) → (b : Ref sig .tc) → Buf (Elt Ideal) ((c : Thread nD τ).loc b)) (c : Dev nD) :
    (dat0 (F := Ideal) V c).arrAt 3 cfg0.N = Cert.GcnSpec.scaleMatmul (V c main_arg0) (V c main_v10) (V c main_arg3) :=
  (dat0 (F := Ideal) V c).arrAt_eq_of_cover 3 _ (fun t _ => Pre0.flushed_eq V c t) Pre0.cover

end Cert.KernelIdeal.Hand

end
-- ==== Proof.Pre2.lean ====
/-
  Region 2 of the kernel: every row of the input matrix is scaled by that row's entry of a one-column matrix and the
  scaled matrix is multiplied by a 128 × 128 matrix. The grid has 20 points; point t handles rows 5000·t … 5000·t + 4999.
  Here: the body's arithmetic read at an index (a sum over the contracted coordinate of scaled entries times matrix
  entries), each input block read as the rows of its array, what a point writes back as a block of the whole-array
  function scaleMatmul, and, the blocks covering all 100000 rows, the array after the region.
-/
import proofs.«181965_j14688788152987_1_alg».proof.Proof.Gen.KernelIdeal.Frame
import proofs.«181965_j14688788152987_1_alg».proof.Proof.Spec
import proofs.«181965_j14688788152987_1_alg».proof.Proof.LibMatmulAt
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

namespace Pre2

theorem hz : (![0, 0] : Fin 2 → Nat) = fun _ => 0 := funext fun a => by fin_cases a <;> rfl

/-- A one-column matrix broadcast along the columns, read at (p, k), is the column's entry at row p. -/
theorem bcast_col_apply (x : FVec Ideal S5000x1 .f32) (h : S5000x1.Broadcasts S5000x128) (p : Fin 5000) (k : Fin 128) :
    broadcastTo S5000x128 x h (ix2 p k) = x (ix2 p (0 : Fin 1)) := by
  refine broadcastTo_apply x h (ix2 p k) (ix2 p (0 : Fin 1)) fun a => ?_
  match a with
  | ⟨0, _⟩ => rfl
  | ⟨1, _⟩ => rfl

/-- The body's arithmetic at row p and column q: the sum over the contracted coordinate k of the scaled entry
    x0(p, k) · x1(p, 0) times the matrix entry x2(k, q). -/
theorem pay_apply (x0 : Vec Ideal S5000x128 .f32) (x1 : Vec Ideal S5000x1 .f32) (x2 : Vec Ideal S128x128 .f32)
    (p : Fin 5000) (q : Fin 128) :
    k2_pay1 (F := Ideal) x0 x1 x2 (ix2 p q) = ∑ k : Fin 128, (x0 (ix2 p k) * x1 (ix2 p (0 : Fin 1))) * x2 (ix2 k q) := by
  unfold k2_pay1
  refine (matmul_zero_plain_apply _ rfl none _ _ (ix2 p q)).trans ?_
  refine Finset.sum_congr rfl fun k _ => ?_
  show (shapeCast S5000x128 x0 _ (ix2 p k) * broadcastTo S5000x128 (shapeCast S5000x1 x1 _) _ (ix2 p k)) * x2 (ix2 k q) = _
  rw [shapeCast_self, shapeCast_self, bcast_col_apply]

/-- The printed index maps, decided over the grid: at point t the row blocks of the input, of the scale and of the
    output are block t, and the matrix's only block is block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One block of the product from blocks of its operands: if x0 and x1 are rows 5000·n … of A0 and A1, and x2 is A2,
    the body's arithmetic at (p, q) is scaleMatmul A0 A1 A2 at (5000·n + p, q). -/
theorem pay_eq_spec (A0 : Cert.GcnSpec.Mat 100000 128) (A1 : Cert.GcnSpec.Mat 100000 1) (A2 : Cert.GcnSpec.Mat 128 128) (n : Nat)
    (x0 : Vec Ideal S5000x128 .f32) (x1 : Vec Ideal S5000x1 .f32) (x2 : Vec Ideal S128x128 .f32)
    (h0 : ∀ (y : S5000x128.Idx) (i : S100000x128.Idx), (i 0).val = 5000 * n + (y 0).val → (i 1).val = (y 1).val → x0 y = A0 i)
    (h1 : ∀ (y : S5000x1.Idx) (i : S100000x1.Idx), (i 0).val = 5000 * n + (y 0).val → (i 1).val = (y 1).val → x1 y = A1 i)
    (h2 : ∀ (y : S128x128.Idx) (i : S128x128.Idx), (i 0).val = (y 0).val → (i 1).val = (y 1).val → x2 y = A2 i)
    (j : S5000x128.Idx) (i : S100000x128.Idx) (hi0 : (i 0).val = 5000 * n + (j 0).val) (hi1 : (i 1).val = (j 1).val) :
    k2_pay1 (F := Ideal) x0 x1 x2 j = Cert.GcnSpec.scaleMatmul A0 A1 A2 i := by
  obtain ⟨p, q, rfl⟩ : ∃ (p : Fin 5000) (q : Fin 128), j = ix2 p q := ⟨j 0, j 1, eq_ix2 j⟩
  rw [pay_apply]
  unfold Cert.GcnSpec.scaleMatmul
  refine Finset.sum_congr rfl fun k _ => ?_
  rw [h0 (ix2 p k) (ix2 (i 0 : Fin 100000) k) hi0 rfl, h1 (ix2 p (0 : Fin 1)) (ix2 (i 0 : Fin 100000) (0 : Fin 1)) hi0 rfl,
    h2 (ix2 k q) (ix2 k (i 1 : Fin 128)) rfl hi1]

variable (V : (c : Dev nD) → (b : Ref sig .tc) → Buf (Elt Ideal) ((c : Thread nD τ).loc b))

/-- The input's block at point t is rows 5000·t … 5000·t + 4999 of the input. -/
theorem read0 (c : Dev nD) (t : Fin cfg2.N) (y : S5000x128.Idx) (i : S100000x128.Idx)
    (h0 : (i 0).val = 5000 * t.val + (y 0).val) (h1 : (i 1).val = (y 1).val) :
    (iblk2 V c 0 t : Vec Ideal S5000x128 .f32) y = (V c main_v29 : S100000x128.Idx → Elt Ideal .f32) i := by
  obtain ⟨e0, e1, -⟩ := idx_facts t
  unfold iblk2
  rw [View.read_apply]
  show V c main_v29 (((cfg2.win 0).blk t).view.emb y) = V c main_v29 i
  refine congrArg (V c main_v29) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The scale's block at point t is rows 5000·t … 5000·t + 4999 of the scale. -/
theorem read1 (c : Dev nD) (t : Fin cfg2.N) (y : S5000x1.Idx) (i : S100000x1.Idx)
    (h0 : (i 0).val = 5000 * t.val + (y 0).val) (h1 : (i 1).val = (y 1).val) :
    (iblk2 V c 1 t : Vec Ideal S5000x1 .f32) y = (V c main_v10 : S100000x1.Idx → Elt Ideal .f32) i := by
  obtain ⟨-, -, e0, e1, -⟩ := idx_facts t
  unfold iblk2
  rw [View.read_apply]
  show V c main_v10 (((cfg2.win 1).blk t).view.emb y) = V c main_v10 i
  refine congrArg (V c main_v10) (funext fun a => Fin.ext ?_)
  match a with
  | ⟨0, _⟩ => show win2_1.index t (0 : Fin 2) * 5000 + 1 * (y 0).val = (i 0).val; rw [e0, h0]; omega
  | ⟨1, _⟩ => show win2_1.index t (1 : Fin 2) * 1 + 1 * (y 1).val = (i 1).val; rw [e1, h1]; omega

/-- The matrix's block at every point is the matrix. -/
theorem read2 (c : Dev nD) (t : Fin cfg2.N) (y : S128x128.Idx) (i : S128x128.Idx)
    (h0 : (i 0).val = (y 0).val) (h1 : (i 1).val = (y 1).val) :
    (iblk2 V c 2 t : Vec Ideal S128x128 .f32) y = (V c main_arg7 : S128x128.Idx → Elt Ideal .f32) i := by
  obtain ⟨-, -, -, -, e0, e1, -⟩ := idx_facts t
  unfold iblk2
  rw [View.read_apply]
  show V c main_arg7 (((cfg2.win 2).blk t).view.emb y) = V c main_arg7 i
  refine congrArg (V c main_arg7) (funext fun a => Fin.ext ?_)
  match a with
  | ⟨0, _⟩ => show win2_2.index t (0 : Fin 2) * 128 + 1 * (y 0).val = (i 0).val; rw [e0, h0]; omega
  | ⟨1, _⟩ => show win2_2.index t (1 : Fin 2) * 128 + 1 * (y 1).val = (i 1).val; rw [e1, h1]; omega

/-- What point t writes back is block t of scaleMatmul of the three arrays as the region finds them. -/
theorem flushed_eq (c : Dev nD) (t : Fin cfg2.N) :
    (dat2 (F := Ideal) V c).flushed 3 t = ((cfg2.win 3).blk t).view.read (Elt Ideal)
      (Cert.GcnSpec.scaleMatmul (V c main_v29) (V c main_v10) (V c main_arg7)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S128x128) hz]
  obtain ⟨-, -, -, -, -, -, e0, e1⟩ := idx_facts t
  funext j
  rw [View.read_apply]
  refine pay_eq_spec (V c main_v29) (V c main_v10) (V c main_arg7) t.val (iblk2 V c 0 t) (iblk2 V c 1 t) (iblk2 V c 2 t)
    (read0 V c t) (read1 V c t) (read2 V c t) j (((cfg2.win 3).blk t).view.emb j) ?_ ?_
  · show win2_3.index t (0 : Fin 2) * 5000 + 1 * (j 0).val = 5000 * t.val + (j 0).val; rw [e0]; omega
  · show win2_3.index t (1 : Fin 2) * 128 + 1 * (j 1).val = (j 1).val; rw [e1]; omega

/-- An index of the output array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v30).slice (win2_3.rect t)).set ↔ _
  rw [View.set_slice_whole, Rect.mem_set_unit]
  exact Iff.rfl

/-- Row r of the output lies in the block of point r / 5000, and every point writes its block back. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_3 _, ?_⟩
  rw [mem_blk]
  obtain ⟨-, -, -, -, -, -, e0, e1⟩ := idx_facts ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e0]; show (i 0).val / 5000 * 5000 ≤ (i 0).val ∧ (i 0).val < (i 0).val / 5000 * 5000 + 5000; omega
  | ⟨1, _⟩ => show win2_3.index _ (1 : Fin 2) * 128 ≤ (i 1).val ∧ (i 1).val < win2_3.index _ (1 : Fin 2) * 128 + 128; rw [e1]; omega

end Pre2

/-- The array region 2 leaves: scaleMatmul of the input, the scale and the matrix as the region finds them. -/
theorem final2 (V : (c : Dev nD) → (b : Ref sig .tc) → Buf (Elt Ideal) ((c : Thread nD τ).loc b)) (c : Dev nD) :
    (dat2 (F := Ideal) V c).arrAt 3 cfg2.N = Cert.GcnSpec.scaleMatmul (V c main_v29) (V c main_v10) (V c main_arg7) :=
  (dat2 (F := Ideal) V c).arrAt_eq_of_cover 3 _ (fun t _ => Pre2.flushed_eq V c t) Pre2.cover

end Cert.KernelIdeal.Hand

end
-- ==== Proof.Pre4.lean ====
/-
  Region 4 of the kernel: every row of the input matrix is scaled by that row's entry of a one-column matrix and the
  scaled matrix is multiplied by a 128 × 40 matrix. The grid has 20 points; point t handles rows 5000·t … 5000·t + 4999.
  Here: the body's arithmetic read at an index (a sum over the contracted coordinate of scaled entries times matrix
  entries), each input block read as the rows of its array, what a point writes back as a block of the whole-array
  function scaleMatmul, and, the blocks covering all 100000 rows, the array after the region.
-/
import proofs.«181965_j14688788152987_1_alg».proof.Proof.Gen.KernelIdeal.Frame
import proofs.«181965_j14688788152987_1_alg».proof.Proof.Spec
import proofs.«181965_j14688788152987_1_alg».proof.Proof.LibMatmulAt
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

namespace Pre4

theorem hz : (![0, 0] : Fin 2 → Nat) = fun _ => 0 := funext fun a => by fin_cases a <;> rfl

/-- A one-column matrix broadcast along the columns, read at (p, k), is the column's entry at row p. -/
theorem bcast_col_apply (x : FVec Ideal S5000x1 .f32) (h : S5000x1.Broadcasts S5000x128) (p : Fin 5000) (k : Fin 128) :
    broadcastTo S5000x128 x h (ix2 p k) = x (ix2 p (0 : Fin 1)) := by
  refine broadcastTo_apply x h (ix2 p k) (ix2 p (0 : Fin 1)) fun a => ?_
  match a with
  | ⟨0, _⟩ => rfl
  | ⟨1, _⟩ => rfl

/-- The body's arithmetic at row p and column q: the sum over the contracted coordinate k of the scaled entry
    x0(p, k) · x1(p, 0) times the matrix entry x2(k, q). -/
theorem pay_apply (x0 : Vec Ideal S5000x128 .f32) (x1 : Vec Ideal S5000x1 .f32) (x2 : Vec Ideal S128x40 .f32)
    (p : Fin 5000) (q : Fin 40) :
    k4_pay1 (F := Ideal) x0 x1 x2 (ix2 p q) = ∑ k : Fin 128, (x0 (ix2 p k) * x1 (ix2 p (0 : Fin 1))) * x2 (ix2 k q) := by
  unfold k4_pay1
  refine (matmul_zero_plain_apply _ rfl none _ _ (ix2 p q)).trans ?_
  refine Finset.sum_congr rfl fun k _ => ?_
  show (shapeCast S5000x128 x0 _ (ix2 p k) * broadcastTo S5000x128 (shapeCast S5000x1 x1 _) _ (ix2 p k)) * x2 (ix2 k q) = _
  rw [shapeCast_self, shapeCast_self, bcast_col_apply]

/-- The printed index maps, decided over the grid: at point t the row blocks of the input, of the scale and of the
    output are block t, and the matrix's only block is block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- One block of the product from blocks of its operands: if x0 and x1 are rows 5000·n … of A0 and A1, and x2 is A2,
    the body's arithmetic at (p, q) is scaleMatmul A0 A1 A2 at (5000·n + p, q). -/
theorem pay_eq_spec (A0 : Cert.GcnSpec.Mat 100000 128) (A1 : Cert.GcnSpec.Mat 100000 1) (A2 : Cert.GcnSpec.Mat 128 40) (n : Nat)
    (x0 : Vec Ideal S5000x128 .f32) (x1 : Vec Ideal S5000x1 .f32) (x2 : Vec Ideal S128x40 .f32)
    (h0 : ∀ (y : S5000x128.Idx) (i : S100000x128.Idx), (i 0).val = 5000 * n + (y 0).val → (i 1).val = (y 1).val → x0 y = A0 i)
    (h1 : ∀ (y : S5000x1.Idx) (i : S100000x1.Idx), (i 0).val = 5000 * n + (y 0).val → (i 1).val = (y 1).val → x1 y = A1 i)
    (h2 : ∀ (y : S128x40.Idx) (i : S128x40.Idx), (i 0).val = (y 0).val → (i 1).val = (y 1).val → x2 y = A2 i)
    (j : S5000x40.Idx) (i : S100000x40.Idx) (hi0 : (i 0).val = 5000 * n + (j 0).val) (hi1 : (i 1).val = (j 1).val) :
    k4_pay1 (F := Ideal) x0 x1 x2 j = Cert.GcnSpec.scaleMatmul A0 A1 A2 i := by
  obtain ⟨p, q, rfl⟩ : ∃ (p : Fin 5000) (q : Fin 40), j = ix2 p q := ⟨j 0, j 1, eq_ix2 j⟩
  rw [pay_apply]
  unfold Cert.GcnSpec.scaleMatmul
  refine Finset.sum_congr rfl fun k _ => ?_
  rw [h0 (ix2 p k) (ix2 (i 0 : Fin 100000) k) hi0 rfl, h1 (ix2 p (0 : Fin 1)) (ix2 (i 0 : Fin 100000) (0 : Fin 1)) hi0 rfl,
    h2 (ix2 k q) (ix2 k (i 1 : Fin 40)) rfl hi1]

variable (V : (c : Dev nD) → (b : Ref sig .tc) → Buf (Elt Ideal) ((c : Thread nD τ).loc b))

/-- The input's block at point t is rows 5000·t … 5000·t + 4999 of the input. -/
theorem read0 (c : Dev nD) (t : Fin cfg4.N) (y : S5000x128.Idx) (i : S100000x128.Idx)
    (h0 : (i 0).val = 5000 * t.val + (y 0).val) (h1 : (i 1).val = (y 1).val) :
    (iblk4 V c 0 t : Vec Ideal S5000x128 .f32) y = (V c main_v44 : S100000x128.Idx → Elt Ideal .f32) i := by
  obtain ⟨e0, e1, -⟩ := idx_facts t
  unfold iblk4
  rw [View.read_apply]
  show V c main_v44 (((cfg4.win 0).blk t).view.emb y) = V c main_v44 i
  refine congrArg (V c main_v44) (funext fun a => Fin.ext ?_)
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

/-- The scale's block at point t is rows 5000·t … 5000·t + 4999 of the scale. -/
theorem read1 (c : Dev nD) (t : Fin cfg4.N) (y : S5000x1.Idx) (i : S100000x1.Idx)
    (h0 : (i 0).val = 5000 * t.val + (y 0).val) (h1 : (i 1).val = (y 1).val) :
    (iblk4 V c 1 t : Vec Ideal S5000x1 .f32) y = (V c main_v10 : S100000x1.Idx → Elt Ideal .f32) i := by
  obtain ⟨-, -, e0, e1, -⟩ := idx_facts t
  unfold iblk4
  rw [View.read_apply]
  show V c main_v10 (((cfg4.win 1).blk t).view.emb y) = V c main_v10 i
  refine congrArg (V c main_v10) (funext fun a => Fin.ext ?_)
  match a with
  | ⟨0, _⟩ => show win4_1.index t (0 : Fin 2) * 5000 + 1 * (y 0).val = (i 0).val; rw [e0, h0]; omega
  | ⟨1, _⟩ => show win4_1.index t (1 : Fin 2) * 1 + 1 * (y 1).val = (i 1).val; rw [e1, h1]; omega

/-- The matrix's block at every point is the matrix. -/
theorem read2 (c : Dev nD) (t : Fin cfg4.N) (y : S128x40.Idx) (i : S128x40.Idx)
    (h0 : (i 0).val = (y 0).val) (h1 : (i 1).val = (y 1).val) :
    (iblk4 V c 2 t : Vec Ideal S128x40 .f32) y = (V c main_arg11 : S128x40.Idx → Elt Ideal .f32) i := by
  obtain ⟨-, -, -, -, e0, e1, -⟩ := idx_facts t
  unfold iblk4
  rw [View.read_apply]
  show V c main_arg11 (((cfg4.win 2).blk t).view.emb y) = V c main_arg11 i
  refine congrArg (V c main_arg11) (funext fun a => Fin.ext ?_)
  match a with
  | ⟨0, _⟩ => show win4_2.index t (0 : Fin 2) * 128 + 1 * (y 0).val = (i 0).val; rw [e0, h0]; omega
  | ⟨1, _⟩ => show win4_2.index t (1 : Fin 2) * 40 + 1 * (y 1).val = (i 1).val; rw [e1, h1]; omega

/-- What point t writes back is block t of scaleMatmul of the three arrays as the region finds them. -/
theorem flushed_eq (c : Dev nD) (t : Fin cfg4.N) :
    (dat4 (F := Ideal) V c).flushed 3 t = ((cfg4.win 3).blk t).view.read (Elt Ideal)
      (Cert.GcnSpec.scaleMatmul (V c main_v44) (V c main_v10) (V c main_arg11)) := by
  show (cfg4.win 3).cut (grid4.coords t) ((dat4 V c).after 3 t) = _
  rw [after4_3]
  unfold out4_3
  rw [View.canon_unit_zero hz]
  simp only [View.ld_unit_zero (S := S5000x128) hz, View.ld_unit_zero (S := S5000x1) hz, View.ld_unit_zero (S := S128x40) hz]
  obtain ⟨-, -, -, -, -, -, e0, e1⟩ := idx_facts t
  funext j
  rw [View.read_apply]
  refine pay_eq_spec (V c main_v44) (V c main_v10) (V c main_arg11) t.val (iblk4 V c 0 t) (iblk4 V c 1 t) (iblk4 V c 2 t)
    (read0 V c t) (read1 V c t) (read2 V c t) j (((cfg4.win 3).blk t).view.emb j) ?_ ?_
  · show win4_3.index t (0 : Fin 2) * 5000 + 1 * (j 0).val = 5000 * t.val + (j 0).val; rw [e0]; omega
  · show win4_3.index t (1 : Fin 2) * 40 + 1 * (j 1).val = (j 1).val; rw [e1]; omega

/-- An index of the output array is in point t's block iff each coordinate is in the block's range on its axis. -/
theorem mem_blk (t : Fin cfg4.N) (i : S100000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v45).slice (win4_3.rect t)).set ↔ _
  rw [View.set_slice_whole, Rect.mem_set_unit]
  exact Iff.rfl

/-- Row r of the output lies in the block of point r / 5000, and every point writes its block back. -/
theorem cover (i : S100000x40.Idx) :
    ∃ t : Fin cfg4.N, (cfg4.win 3).flush t = true ∧ i ∈ ((cfg4.win 3).blk t).view.set := by
  have hi0 : (i 0).val < 100000 := (i 0).isLt
  have hi1 : (i 1).val < 40 := (i 1).isLt
  have hN : cfg4.N = 20 := N_4
  refine ⟨⟨(i 0).val / 5000, by rw [hN]; omega⟩, flush4_3 _, ?_⟩
  rw [mem_blk]
  obtain ⟨-, -, -, -, -, -, e0, e1⟩ := idx_facts ⟨(i 0).val / 5000, by rw [hN]; omega⟩
  intro a
  match a with
  | ⟨0, _⟩ => show win4_3.index _ (0 : Fin 2) * 5000 ≤ (i 0).val ∧ (i 0).val < win4_3.index _ (0 : Fin 2) * 5000 + 5000; rw [e0]; show (i 0).val / 5000 * 5000 ≤ (i 0).val ∧ (i 0).val < (i 0).val / 5000 * 5000 + 5000; omega
  | ⟨1, _⟩ => show win4_3.index _ (1 : Fin 2) * 40 ≤ (i 1).val ∧ (i 1).val < win4_3.index _ (1 : Fin 2) * 40 + 40; rw [e1]; omega

end Pre4

/-- The array region 4 leaves: scaleMatmul of the input, the scale and the matrix as the region finds them. -/
theorem final4 (V : (c : Dev nD) → (b : Ref sig .tc) → Buf (Elt Ideal) ((c : Thread nD τ).loc b)) (c : Dev nD) :
    (dat4 (F := Ideal) V c).arrAt 3 cfg4.N = Cert.GcnSpec.scaleMatmul (V c main_v44) (V c main_v10) (V c main_arg11) :=
  (dat4 (F := Ideal) V c).arrAt_eq_of_cover 3 _ (fun t _ => Pre4.flushed_eq V c t) Pre4.cover

end Cert.KernelIdeal.Hand

end
-- ==== Proof.Post1.lean ====
/-
  Region 1's output array as one function of the arrays it finds (the first layer's normalisation).

  Each of the 20 grid points takes 5000 rows of a 100000 × 128 matrix m, the same rows of a one-column matrix s, and
  three whole one-row matrices b, g, bt. It forms x(r, j) = m(r, j) · s(r, 0) + b(0, j), the mean mu(r) of row r (the
  sum over the 128 columns divided by 128) and its variance var(r) (the sum of the squared deviations divided by 128),
  and stores max (g(0, j) · (x(r, j) − mu(r)) · rsqrt (var(r) + eps) + bt(0, j)) 0 into the same rows of the output.

  First the body's one stored value is read entry by entry: the column sums are finite sums over the row, the
  one-column and one-row broadcasts read the operand's row or column entry, and the result is Spec's lnRelu of Spec's
  affine on the 5000-row block. Then, because that value at row r only looks at row r of x (and x at row r only at
  row r of m and s), the block a point writes is the block of the array-level function, and the 20 row blocks cover
  the array; so the array ends holding lnRelu (affine m s b) g bt.
-/
import proofs.«181965_j14688788152987_1_alg».proof.Proof.Gen.KernelIdeal.Frame
import proofs.«181965_j14688788152987_1_alg».proof.Proof.Spec
import Idealize.ShloMosaic.Lib.Pipeline.Value
import Idealize.ShloMosaic.Lib.ValueLayout
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

namespace Post1

/-- A one-column matrix broadcast along the columns reads, at (p, c), the operand's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a cast to a one-column matrix reads, at (p, u), the operand at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The sum over the 128 columns, started from the zero word: at row p, the sum of the row's entries. -/
theorem rowSum_apply (v : FVec Ideal S5000x128 .f32) (hφ : FKind.Formats .f32)
    (hacc : (0x00000000#32 : BitVec 32) = FKind.add.neutral .f32 hφ) (p : Fin 5000) :
    multiReduction .add [1] S5000 v 0x00000000#32 reduces_S5000x128_S5000 hφ hacc (ix1 p) = ∑ k : Fin 128, v (ix2 p k) := by
  refine (Ideal.multiReduction_add_single v 0x00000000#32 reduces_S5000x128_S5000 hφ hacc (ix1 p)).trans ?_
  refine Finset.sum_congr rfl fun k _ => congrArg v (funext fun a => ?_)
  match a with
  | ⟨0, _⟩ => rfl
  | ⟨1, _⟩ => rfl

/-- The rows scaled and shifted, as the body computes them. -/
abbrev preK (x0 : Vec Ideal S5000x128 .f32) (x1 : Vec Ideal S5000x1 .f32) (x2 : Vec Ideal S1x128 .f32) : FVec Ideal S5000x128 .f32 :=
  addf (mulf x0 (broadcastTo S5000x128 x1 broadcasts_S5000x1_S5000x128)) (broadcastTo S5000x128 x2 broadcasts_S1x128_S5000x128)

/-- The body's column of row means. -/
abbrev meanK (X : FVec Ideal S5000x128 .f32) : FVec Ideal S5000x1 .f32 :=
  divf (shapeCast S5000x1 (multiReduction .add [1] S5000 X 0x00000000#32 reduces_S5000x128_S5000 (.inl rfl) rfl) shapeCasts_S5000_S5000x1)
    (broadcast S5000x1 (Scalar.ofBits .f32 0x43000000#32))

/-- The body's deviations from the row means. -/
abbrev devK (X : FVec Ideal S5000x128 .f32) : FVec Ideal S5000x128 .f32 :=
  subf X (broadcastTo S5000x128 (meanK X) broadcasts_S5000x1_S5000x128)

/-- The body's column of row variances. -/
abbrev varK (X : FVec Ideal S5000x128 .f32) : FVec Ideal S5000x1 .f32 :=
  divf (shapeCast S5000x1 (multiReduction .add [1] S5000 (mulf (devK X) (devK X)) 0x00000000#32 reduces_S5000x128_S5000 (.inl rfl) rfl) shapeCasts_S5000_S5000x1)
    (broadcast S5000x1 (Scalar.ofBits .f32 0x43000000#32))

/-- The body's normalisation with gain and offset rows, then the maximum with the zero splat. -/
abbrev lnK (X : FVec Ideal S5000x128 .f32) (g bt : Vec Ideal S1x128 .f32) : FVec Ideal S5000x128 .f32 :=
  maximumf (addf (mulf (mulf (broadcastTo S5000x128 g broadcasts_S1x128_S5000x128) (devK X))
      (broadcastTo S5000x128 (rsqrt (addf (varK X) (broadcast S5000x1 (Scalar.ofBits .f32 0x3727C5AC#32)))) broadcasts_S5000x1_S5000x128))
      (broadcastTo S5000x128 bt broadcasts_S1x128_S5000x128))
    (broadcast S5000x128 (Scalar.ofBits .f32 0x00000000#32))

/-- The body's one stored value is that composition (the identity casts dropped). -/
theorem pay_eq (x0 : Vec Ideal S5000x128 .f32) (x1 : Vec Ideal S5000x1 .f32) (x2 x3 x4 : Vec Ideal S1x128 .f32) :
    k1_pay1 x0 x1 x2 x3 x4 = lnK (preK x0 x1 x2) x3 x4 := by
  unfold k1_pay1
  simp only [shapeCast_self]

/-- The scaled and shifted rows are Spec's affine, entry by entry. -/
theorem preK_eq (x0 : Vec Ideal S5000x128 .f32) (x1 : Vec Ideal S5000x1 .f32) (x2 : Vec Ideal S1x128 .f32) :
    preK x0 x1 x2 = Cert.GcnSpec.affine x0 x1 x2 := by
  funext j
  obtain ⟨p, q, rfl⟩ : ∃ (p : Fin 5000) (q : Fin 128), j = ix2 p q := ⟨j 0, j 1, eq_ix2 j⟩
  unfold Cert.GcnSpec.affine
  refine (addf_apply _ _ _).trans ?_
  refine congrArg₂ (· + ·) ((mulf_apply _ _ _).trans (congrArg₂ (· * ·) rfl ?_)) ?_
  · exact broadcastTo_a1_ab_apply x1 _ p q
  · exact broadcastTo_1b_ab_apply x2 _ p q

/-- The body's mean column at row p is Spec's mean of row p. -/
theorem meanK_apply (X : FVec Ideal S5000x128 .f32) (p : Fin 5000) (u : Fin 1) :
    meanK X (ix2 p u) = Cert.GcnSpec.rowMean X p := by
  unfold Cert.GcnSpec.rowMean
  refine (divf_apply _ _ _).trans ?_
  exact congrArg₂ Ideal.div ((shapeCast_a_a1_apply _ _ p u).trans (rowSum_apply X _ _ p)) rfl

/-- The body's deviation at (p, k). -/
theorem devK_apply (X : FVec Ideal S5000x128 .f32) (p : Fin 5000) (k : Fin 128) :
    devK X (ix2 p k) = X (ix2 p k) - Cert.GcnSpec.rowMean X p := by
  refine (subf_apply _ _ _).trans ?_
  exact congrArg (X (ix2 p k) - ·) ((broadcastTo_a1_ab_apply _ _ p k).trans (meanK_apply X p 0))

/-- The body's variance column at row p is Spec's variance of row p. -/
theorem varK_apply (X : FVec Ideal S5000x128 .f32) (p : Fin 5000) (u : Fin 1) :
    varK X (ix2 p u) = Cert.GcnSpec.rowVar X p := by
  unfold Cert.GcnSpec.rowVar
  refine (divf_apply _ _ _).trans ?_
  refine congrArg₂ Ideal.div ((shapeCast_a_a1_apply _ _ p u).trans ((rowSum_apply _ _ _ p).trans ?_)) rfl
  refine Finset.sum_congr rfl fun k _ => ?_
  refine (mulf_apply _ _ _).trans ?_
  rw [devK_apply]

/-- The body's result at (p, q) is Spec's normalised, rectified entry. -/
theorem lnK_apply (X : FVec Ideal S5000x128 .f32) (g bt : Vec Ideal S1x128 .f32) (p : Fin 5000) (q : Fin 128) :
    lnK X g bt (ix2 p q) = Cert.GcnSpec.lnRelu X g bt (ix2 p q) := by
  show max ((broadcastTo S5000x128 g broadcasts_S1x128_S5000x128 (ix2 p q) * devK X (ix2 p q))
        * broadcastTo S5000x128 (rsqrt (addf (varK X) (broadcast S5000x1 (Scalar.ofBits .f32 0x3727C5AC#32)))) broadcasts_S5000x1_S5000x128 (ix2 p q)
        + broadcastTo S5000x128 bt broadcasts_S1x128_S5000x128 (ix2 p q)) (Ideal.ofBits .f32 0x00000000#32)
      = max ((g (ix2 (0 : Fin 1) q) * (X (ix2 p q) - Cert.GcnSpec.rowMean X p))
        * Ideal.rsqrt (Cert.GcnSpec.rowVar X p + Cert.GcnSpec.cEps) + bt (ix2 (0 : Fin 1) q)) Cert.GcnSpec.cZero
  rw [broadcastTo_1b_ab_apply g, broadcastTo_1b_ab_apply bt, devK_apply, broadcastTo_a1_ab_apply]
  show max ((g (ix2 (0 : Fin 1) q) * (X (ix2 p q) - Cert.GcnSpec.rowMean X p))
        * Ideal.rsqrt (varK X (ix2 p (0 : Fin 1)) + Ideal.ofBits .f32 0x3727C5AC#32) + bt (ix2 (0 : Fin 1) q)) (Ideal.ofBits .f32 0x00000000#32) = _
  rw [varK_apply]

/-- The body's arithmetic, entry by entry, in Spec's terms. -/
theorem pay_apply (x0 : Vec Ideal S5000x128 .f32) (x1 : Vec Ideal S5000x1 .f32) (x2 x3 x4 : Vec Ideal S1x128 .f32)
    (p : Fin 5000) (q : Fin 128) :
    k1_pay1 x0 x1 x2 x3 x4 (ix2 p q)
      = Cert.GcnSpec.lnRelu (Cert.GcnSpec.affine x0 x1 x2) x3 x4 (ix2 p q) := by
  rw [pay_eq, preK_eq]
  exact lnK_apply _ x3 x4 p q

theorem hz : (![0, 0] : Fin 2 → Nat) = fun _ => 0 := funext fun a => by fin_cases a <;> rfl

/-- The printed index maps over the grid: the row blocks are at block row t, column block 0; the one-row arrays whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Window 0's block at point t is rows 5000 t … 5000 t + 4999 of its array. -/
theorem blk0 (c : Dev nD) (t : Fin cfg1.N) (p : Fin 5000) (q : Fin 128) (k : S100000x128.Idx)
    (hk0 : (k 0).val = 5000 * t.val + p.val) (hk1 : (k 1).val = q.val) :
    (iblk1 (F := Ideal) V c 0 t : Vec Ideal S5000x128 .f32) (ix2 p q) = (V c main_v25 : S100000x128.Idx → EReal) k := by
  obtain ⟨e0, e1, -⟩ := idx_facts t
  unfold iblk1
  rw [View.read_apply]
  show V c main_v25 (((cfg1.win 0).blk t).view.emb (ix2 p q)) = V c main_v25 k
  refine congrArg _ (funext fun a => Fin.ext ?_)
  match a with
  | ⟨0, _⟩ => show win1_0.index t (0 : Fin 2) * 5000 + 1 * p.val = (k 0).val; omega
  | ⟨1, _⟩ => show win1_0.index t (1 : Fin 2) * 128 + 1 * q.val = (k 1).val; omega

/-- Window 1's block at point t is the same rows of the one-column array. -/
theorem blk1 (c : Dev nD) (t : Fin cfg1.N) (p : Fin 5000) (u : Fin 1) (k : S100000x1.Idx)
    (hk0 : (k 0).val = 5000 * t.val + p.val) :
    (iblk1 (F := Ideal) V c 1 t : Vec Ideal S5000x1 .f32) (ix2 p u) = (V c main_v14 : S100000x1.Idx → EReal) k := by
  obtain ⟨-, -, e0, e1, -⟩ := idx_facts t
  unfold iblk1
  rw [View.read_apply]
  show V c main_v14 (((cfg1.win 1).blk t).view.emb (ix2 p u)) = V c main_v14 k
  refine congrArg _ (funext fun a => Fin.ext ?_)
  match a with
  | ⟨0, _⟩ => show win1_1.index t (0 : Fin 2) * 5000 + 1 * p.val = (k 0).val; omega
  | ⟨1, _⟩ => show win1_1.index t (1 : Fin 2) * 1 + 1 * u.val = (k 1).val; have : (k 1).val < 1 := (k 1).isLt; have := u.isLt; omega

/-- Window 2's block at every point is the whole one-row array. -/
theorem blk2 (c : Dev nD) (t : Fin cfg1.N) (u : Fin 1) (q : Fin 128) (k : S1x128.Idx) (hk1 : (k 1).val = q.val) :
    (iblk1 (F := Ideal) V c 2 t : Vec Ideal S1x128 .f32) (ix2 u q) = (V c main_v26 : S1x128.Idx → EReal) k := by
  obtain ⟨-, -, -, -, e0, e1, -⟩ := idx_facts t
  unfold iblk1
  rw [View.read_apply]
  show V c main_v26 (((cfg1.win 2).blk t).view.emb (ix2 u q)) = V c main_v26 k
  refine congrArg _ (funext fun a => Fin.ext ?_)
  match a with
  | ⟨0, _⟩ => show win1_2.index t (0 : Fin 2) * 1 + 1 * u.val = (k 0).val; have : (k 0).val < 1 := (k 0).isLt; have := u.isLt; omega
  | ⟨1, _⟩ => show win1_2.index t (1 : Fin 2) * 128 + 1 * q.val = (k 1).val; omega

/-- Window 3's block at every point is the whole one-row array. -/
theorem blk3 (c : Dev nD) (t : Fin cfg1.N) (u : Fin 1) (q : Fin 128) (k : S1x128.Idx) (hk1 : (k 1).val = q.val) :
    (iblk1 (F := Ideal) V c 3 t : Vec Ideal S1x128 .f32) (ix2 u q) = (V c main_v27 : S1x128.Idx → EReal) k := by
  obtain ⟨-, -, -, -, -, -, e0, e1, -⟩ := idx_facts t
  unfold iblk1
  rw [View.read_apply]
  show V c main_v27 (((cfg1.win 3).blk t).view.emb (ix2 u q)) = V c main_v27 k
  refine congrArg _ (funext fun a => Fin.ext ?_)
  match a with
  | ⟨0, _⟩ => show win1_3.index t (0 : Fin 2) * 1 + 1 * u.val = (k 0).val; have : (k 0).val < 1 := (k 0).isLt; have := u.isLt; omega
  | ⟨1, _⟩ => show win1_3.index t (1 : Fin 2) * 128 + 1 * q.val = (k 1).val; omega

/-- Window 4's block at every point is the whole one-row array. -/
theorem blk4 (c : Dev nD) (t : Fin cfg1.N) (u : Fin 1) (q : Fin 128) (k : S1x128.Idx) (hk1 : (k 1).val = q.val) :
    (iblk1 (F := Ideal) V c 4 t : Vec Ideal S1x128 .f32) (ix2 u q) = (V c main_v28 : S1x128.Idx → EReal) k := by
  obtain ⟨-, -, -, -, -, -, -, -, e0, e1, -⟩ := idx_facts t
  unfold iblk1
  rw [View.read_apply]
  show V c main_v28 (((cfg1.win 4).blk t).view.emb (ix2 u q)) = V c main_v28 k
  refine congrArg _ (funext fun a => Fin.ext ?_)
  match a with
  | ⟨0, _⟩ => show win1_4.index t (0 : Fin 2) * 1 + 1 * u.val = (k 0).val; have : (k 0).val < 1 := (k 0).isLt; have := u.isLt; omega
  | ⟨1, _⟩ => show win1_4.index t (1 : Fin 2) * 128 + 1 * q.val = (k 1).val; omega

/-- Spec's normalised, rectified entry at a row only looks at that row: two matrices that agree on one row each, with
    gain and offset rows that agree, give the same entries on those rows. -/
theorem lnRelu_row_congr (X : Cert.GcnSpec.Mat 5000 128) (X' : Cert.GcnSpec.Mat 100000 128) (g bt g' bt' : Cert.GcnSpec.Mat 1 128)
    (r : Fin 5000) (r' : Fin 100000) (hX : ∀ k : Fin 128, X (ix2 r k) = X' (ix2 r' k))
    (hg : ∀ k : Fin 128, g (ix2 (0 : Fin 1) k) = g' (ix2 (0 : Fin 1) k))
    (hbt : ∀ k : Fin 128, bt (ix2 (0 : Fin 1) k) = bt' (ix2 (0 : Fin 1) k)) (q : Fin 128) :
    Cert.GcnSpec.lnRelu X g bt (ix2 r q) = Cert.GcnSpec.lnRelu X' g' bt' (ix2 r' q) := by
  have hm : Cert.GcnSpec.rowMean X r = Cert.GcnSpec.rowMean X' r' := by
    unfold Cert.GcnSpec.rowMean
    exact congrArg (Ideal.div · Cert.GcnSpec.c128) (Finset.sum_congr rfl fun k _ => hX k)
  have hv : Cert.GcnSpec.rowVar X r = Cert.GcnSpec.rowVar X' r' := by
    unfold Cert.GcnSpec.rowVar
    rw [hm]
    exact congrArg (Ideal.div · Cert.GcnSpec.c128) (Finset.sum_congr rfl fun k _ => by rw [hX k])
  show max ((g (ix2 (0 : Fin 1) q) * (X (ix2 r q) - Cert.GcnSpec.rowMean X r))
        * Ideal.rsqrt (Cert.GcnSpec.rowVar X r + Cert.GcnSpec.cEps) + bt (ix2 (0 : Fin 1) q)) Cert.GcnSpec.cZero
      = max ((g' (ix2 (0 : Fin 1) q) * (X' (ix2 r' q) - Cert.GcnSpec.rowMean X' r'))
        * Ideal.rsqrt (Cert.GcnSpec.rowVar X' r' + Cert.GcnSpec.cEps) + bt' (ix2 (0 : Fin 1) q)) Cert.GcnSpec.cZero
  rw [hm, hv, hX q, hg q, hbt q]

/-- What point t writes back is block t of the array-level function of the arrays the region finds. -/
theorem flushed_eq (c : Dev nD) (t : Fin cfg1.N) :
    (dat1 (F := Ideal) V c).flushed 5 t = ((cfg1.win 5).blk t).view.read (Elt Ideal)
      (Cert.GcnSpec.lnRelu (Cert.GcnSpec.affine (V c main_v25) (V c main_v14) (V c main_v26)) (V c main_v27) (V c main_v28)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz]
  obtain ⟨-, -, -, -, -, -, -, -, -, -, e0, e1⟩ := idx_facts t
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = Cert.GcnSpec.lnRelu (Cert.GcnSpec.affine (V c main_v25) (V c main_v14) (V c main_v26)) (V c main_v27) (V c main_v28)
        (((cfg1.win 5).blk t).view.emb (ix2 p q))
  refine (pay_apply (iblk1 V c 0 t) (iblk1 V c 1 t) (iblk1 V c 2 t) (iblk1 V c 3 t) (iblk1 V c 4 t) p q).trans ?_
  have h0 : ((((cfg1.win 5).blk t).view.emb (ix2 p q)) 0).val = 5000 * t.val + p.val := by
    show win1_5.index t (0 : Fin 2) * 5000 + 1 * p.val = _; omega
  have h1 : ((((cfg1.win 5).blk t).view.emb (ix2 p q)) 1).val = q.val := by
    show win1_5.index t (1 : Fin 2) * 128 + 1 * q.val = _; omega
  generalize ((cfg1.win 5).blk t).view.emb (ix2 p q) = i at h0 h1
  have hq : (i 1 : Fin 128) = q := Fin.ext h1
  show _ = Cert.GcnSpec.lnRelu (Cert.GcnSpec.affine (V c main_v25) (V c main_v14) (V c main_v26)) (V c main_v27) (V c main_v28) (ix2 (i 0 : Fin 100000) (i 1 : Fin 128))
  rw [hq]
  refine lnRelu_row_congr _ _ _ _ _ _ p (i 0) (fun k => ?_) (fun k => blk3 V c t 0 k _ rfl) (fun k => blk4 V c t 0 k _ rfl) q
  unfold Cert.GcnSpec.affine
  exact congrArg₂ (· + ·) (congrArg₂ (· * ·) (blk0 V c t p k _ h0 rfl) (blk1 V c t p 0 _ h0)) (blk2 V c t 0 k _ rfl)

/-- Row r of the output array lies in the block of point r / 5000. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- The 20 row blocks cover the output array. -/
theorem cover (i : S100000x128.Idx) : ∃ t : Fin cfg1.N, (cfg1.win 5).flush t = true ∧ i ∈ ((cfg1.win 5).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, -, -, -, -, -, -, e0, e1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

end Post1

/-- Region 1's output array after its run: the array it finds in window 0 with its rows scaled by window 1's column
    and window 2's row added, every row then normalised with gain window 3 and offset window 4, and rectified. -/
theorem final1 (V : (c : Dev nD) → (b : Ref sig .tc) → Buf (Elt Ideal) ((c : Thread nD τ).loc b)) (c : Dev nD) :
    (dat1 (F := Ideal) V c).arrAt 5 cfg1.N
      = Cert.GcnSpec.lnRelu (Cert.GcnSpec.affine (V c main_v25) (V c main_v14) (V c main_v26)) (V c main_v27) (V c main_v28) :=
  (dat1 (F := Ideal) V c).arrAt_eq_of_cover 5 _ (fun t _ => Post1.flushed_eq V c t) Post1.cover

end Cert.KernelIdeal.Hand

end
-- ==== Proof.Post3.lean ====
/-
  Region 3's output array as one function of the arrays it finds (the second layer's normalisation).

  Each of the 20 grid points takes 5000 rows of a 100000 × 128 matrix m, the same rows of a one-column matrix s, and
  three whole one-row matrices b, g, bt. It forms x(r, j) = m(r, j) · s(r, 0) + b(0, j), the mean mu(r) of row r (the
  sum over the 128 columns divided by 128) and its variance var(r) (the sum of the squared deviations divided by 128),
  and stores max (g(0, j) · (x(r, j) − mu(r)) · rsqrt (var(r) + eps) + bt(0, j)) 0 into the same rows of the output.

  First the body's one stored value is read entry by entry: the column sums are finite sums over the row, the
  one-column and one-row broadcasts read the operand's row or column entry, and the result is Spec's lnRelu of Spec's
  affine on the 5000-row block. Then, because that value at row r only looks at row r of x (and x at row r only at
  row r of m and s), the block a point writes is the block of the array-level function, and the 20 row blocks cover
  the array; so the array ends holding lnRelu (affine m s b) g bt.
-/
import proofs.«181965_j14688788152987_1_alg».proof.Proof.Gen.KernelIdeal.Frame
import proofs.«181965_j14688788152987_1_alg».proof.Proof.Spec
import Idealize.ShloMosaic.Lib.Pipeline.Value
import Idealize.ShloMosaic.Lib.ValueLayout
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

namespace Post3

/-- A one-column matrix broadcast along the columns reads, at (p, c), the operand's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a cast to a one-column matrix reads, at (p, u), the operand at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The sum over the 128 columns, started from the zero word: at row p, the sum of the row's entries. -/
theorem rowSum_apply (v : FVec Ideal S5000x128 .f32) (hφ : FKind.Formats .f32)
    (hacc : (0x00000000#32 : BitVec 32) = FKind.add.neutral .f32 hφ) (p : Fin 5000) :
    multiReduction .add [1] S5000 v 0x00000000#32 reduces_S5000x128_S5000 hφ hacc (ix1 p) = ∑ k : Fin 128, v (ix2 p k) := by
  refine (Ideal.multiReduction_add_single v 0x00000000#32 reduces_S5000x128_S5000 hφ hacc (ix1 p)).trans ?_
  refine Finset.sum_congr rfl fun k _ => congrArg v (funext fun a => ?_)
  match a with
  | ⟨0, _⟩ => rfl
  | ⟨1, _⟩ => rfl

/-- The rows scaled and shifted, as the body computes them. -/
abbrev preK (x0 : Vec Ideal S5000x128 .f32) (x1 : Vec Ideal S5000x1 .f32) (x2 : Vec Ideal S1x128 .f32) : FVec Ideal S5000x128 .f32 :=
  addf (mulf x0 (broadcastTo S5000x128 x1 broadcasts_S5000x1_S5000x128)) (broadcastTo S5000x128 x2 broadcasts_S1x128_S5000x128)

/-- The body's column of row means. -/
abbrev meanK (X : FVec Ideal S5000x128 .f32) : FVec Ideal S5000x1 .f32 :=
  divf (shapeCast S5000x1 (multiReduction .add [1] S5000 X 0x00000000#32 reduces_S5000x128_S5000 (.inl rfl) rfl) shapeCasts_S5000_S5000x1)
    (broadcast S5000x1 (Scalar.ofBits .f32 0x43000000#32))

/-- The body's deviations from the row means. -/
abbrev devK (X : FVec Ideal S5000x128 .f32) : FVec Ideal S5000x128 .f32 :=
  subf X (broadcastTo S5000x128 (meanK X) broadcasts_S5000x1_S5000x128)

/-- The body's column of row variances. -/
abbrev varK (X : FVec Ideal S5000x128 .f32) : FVec Ideal S5000x1 .f32 :=
  divf (shapeCast S5000x1 (multiReduction .add [1] S5000 (mulf (devK X) (devK X)) 0x00000000#32 reduces_S5000x128_S5000 (.inl rfl) rfl) shapeCasts_S5000_S5000x1)
    (broadcast S5000x1 (Scalar.ofBits .f32 0x43000000#32))

/-- The body's normalisation with gain and offset rows, then the maximum with the zero splat. -/
abbrev lnK (X : FVec Ideal S5000x128 .f32) (g bt : Vec Ideal S1x128 .f32) : FVec Ideal S5000x128 .f32 :=
  maximumf (addf (mulf (mulf (broadcastTo S5000x128 g broadcasts_S1x128_S5000x128) (devK X))
      (broadcastTo S5000x128 (rsqrt (addf (varK X) (broadcast S5000x1 (Scalar.ofBits .f32 0x3727C5AC#32)))) broadcasts_S5000x1_S5000x128))
      (broadcastTo S5000x128 bt broadcasts_S1x128_S5000x128))
    (broadcast S5000x128 (Scalar.ofBits .f32 0x00000000#32))

/-- The body's one stored value is that composition (the identity casts dropped). -/
theorem pay_eq (x0 : Vec Ideal S5000x128 .f32) (x1 : Vec Ideal S5000x1 .f32) (x2 x3 x4 : Vec Ideal S1x128 .f32) :
    k3_pay1 x0 x1 x2 x3 x4 = lnK (preK x0 x1 x2) x3 x4 := by
  unfold k3_pay1
  simp only [shapeCast_self]

/-- The scaled and shifted rows are Spec's affine, entry by entry. -/
theorem preK_eq (x0 : Vec Ideal S5000x128 .f32) (x1 : Vec Ideal S5000x1 .f32) (x2 : Vec Ideal S1x128 .f32) :
    preK x0 x1 x2 = Cert.GcnSpec.affine x0 x1 x2 := by
  funext j
  obtain ⟨p, q, rfl⟩ : ∃ (p : Fin 5000) (q : Fin 128), j = ix2 p q := ⟨j 0, j 1, eq_ix2 j⟩
  unfold Cert.GcnSpec.affine
  refine (addf_apply _ _ _).trans ?_
  refine congrArg₂ (· + ·) ((mulf_apply _ _ _).trans (congrArg₂ (· * ·) rfl ?_)) ?_
  · exact broadcastTo_a1_ab_apply x1 _ p q
  · exact broadcastTo_1b_ab_apply x2 _ p q

/-- The body's mean column at row p is Spec's mean of row p. -/
theorem meanK_apply (X : FVec Ideal S5000x128 .f32) (p : Fin 5000) (u : Fin 1) :
    meanK X (ix2 p u) = Cert.GcnSpec.rowMean X p := by
  unfold Cert.GcnSpec.rowMean
  refine (divf_apply _ _ _).trans ?_
  exact congrArg₂ Ideal.div ((shapeCast_a_a1_apply _ _ p u).trans (rowSum_apply X _ _ p)) rfl

/-- The body's deviation at (p, k). -/
theorem devK_apply (X : FVec Ideal S5000x128 .f32) (p : Fin 5000) (k : Fin 128) :
    devK X (ix2 p k) = X (ix2 p k) - Cert.GcnSpec.rowMean X p := by
  refine (subf_apply _ _ _).trans ?_
  exact congrArg (X (ix2 p k) - ·) ((broadcastTo_a1_ab_apply _ _ p k).trans (meanK_apply X p 0))

/-- The body's variance column at row p is Spec's variance of row p. -/
theorem varK_apply (X : FVec Ideal S5000x128 .f32) (p : Fin 5000) (u : Fin 1) :
    varK X (ix2 p u) = Cert.GcnSpec.rowVar X p := by
  unfold Cert.GcnSpec.rowVar
  refine (divf_apply _ _ _).trans ?_
  refine congrArg₂ Ideal.div ((shapeCast_a_a1_apply _ _ p u).trans ((rowSum_apply _ _ _ p).trans ?_)) rfl
  refine Finset.sum_congr rfl fun k _ => ?_
  refine (mulf_apply _ _ _).trans ?_
  rw [devK_apply]

/-- The body's result at (p, q) is Spec's normalised, rectified entry. -/
theorem lnK_apply (X : FVec Ideal S5000x128 .f32) (g bt : Vec Ideal S1x128 .f32) (p : Fin 5000) (q : Fin 128) :
    lnK X g bt (ix2 p q) = Cert.GcnSpec.lnRelu X g bt (ix2 p q) := by
  show max ((broadcastTo S5000x128 g broadcasts_S1x128_S5000x128 (ix2 p q) * devK X (ix2 p q))
        * broadcastTo S5000x128 (rsqrt (addf (varK X) (broadcast S5000x1 (Scalar.ofBits .f32 0x3727C5AC#32)))) broadcasts_S5000x1_S5000x128 (ix2 p q)
        + broadcastTo S5000x128 bt broadcasts_S1x128_S5000x128 (ix2 p q)) (Ideal.ofBits .f32 0x00000000#32)
      = max ((g (ix2 (0 : Fin 1) q) * (X (ix2 p q) - Cert.GcnSpec.rowMean X p))
        * Ideal.rsqrt (Cert.GcnSpec.rowVar X p + Cert.GcnSpec.cEps) + bt (ix2 (0 : Fin 1) q)) Cert.GcnSpec.cZero
  rw [broadcastTo_1b_ab_apply g, broadcastTo_1b_ab_apply bt, devK_apply, broadcastTo_a1_ab_apply]
  show max ((g (ix2 (0 : Fin 1) q) * (X (ix2 p q) - Cert.GcnSpec.rowMean X p))
        * Ideal.rsqrt (varK X (ix2 p (0 : Fin 1)) + Ideal.ofBits .f32 0x3727C5AC#32) + bt (ix2 (0 : Fin 1) q)) (Ideal.ofBits .f32 0x00000000#32) = _
  rw [varK_apply]

/-- The body's arithmetic, entry by entry, in Spec's terms. -/
theorem pay_apply (x0 : Vec Ideal S5000x128 .f32) (x1 : Vec Ideal S5000x1 .f32) (x2 x3 x4 : Vec Ideal S1x128 .f32)
    (p : Fin 5000) (q : Fin 128) :
    k3_pay1 x0 x1 x2 x3 x4 (ix2 p q)
      = Cert.GcnSpec.lnRelu (Cert.GcnSpec.affine x0 x1 x2) x3 x4 (ix2 p q) := by
  rw [pay_eq, preK_eq]
  exact lnK_apply _ x3 x4 p q

theorem hz : (![0, 0] : Fin 2 → Nat) = fun _ => 0 := funext fun a => by fin_cases a <;> rfl

/-- The printed index maps over the grid: the row blocks are at block row t, column block 0; the one-row arrays whole. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- Window 0's block at point t is rows 5000 t … 5000 t + 4999 of its array. -/
theorem blk0 (c : Dev nD) (t : Fin cfg3.N) (p : Fin 5000) (q : Fin 128) (k : S100000x128.Idx)
    (hk0 : (k 0).val = 5000 * t.val + p.val) (hk1 : (k 1).val = q.val) :
    (iblk3 (F := Ideal) V c 0 t : Vec Ideal S5000x128 .f32) (ix2 p q) = (V c main_v40 : S100000x128.Idx → EReal) k := by
  obtain ⟨e0, e1, -⟩ := idx_facts t
  unfold iblk3
  rw [View.read_apply]
  show V c main_v40 (((cfg3.win 0).blk t).view.emb (ix2 p q)) = V c main_v40 k
  refine congrArg _ (funext fun a => Fin.ext ?_)
  match a with
  | ⟨0, _⟩ => show win3_0.index t (0 : Fin 2) * 5000 + 1 * p.val = (k 0).val; omega
  | ⟨1, _⟩ => show win3_0.index t (1 : Fin 2) * 128 + 1 * q.val = (k 1).val; omega

/-- Window 1's block at point t is the same rows of the one-column array. -/
theorem blk1 (c : Dev nD) (t : Fin cfg3.N) (p : Fin 5000) (u : Fin 1) (k : S100000x1.Idx)
    (hk0 : (k 0).val = 5000 * t.val + p.val) :
    (iblk3 (F := Ideal) V c 1 t : Vec Ideal S5000x1 .f32) (ix2 p u) = (V c main_v14 : S100000x1.Idx → EReal) k := by
  obtain ⟨-, -, e0, e1, -⟩ := idx_facts t
  unfold iblk3
  rw [View.read_apply]
  show V c main_v14 (((cfg3.win 1).blk t).view.emb (ix2 p u)) = V c main_v14 k
  refine congrArg _ (funext fun a => Fin.ext ?_)
  match a with
  | ⟨0, _⟩ => show win3_1.index t (0 : Fin 2) * 5000 + 1 * p.val = (k 0).val; omega
  | ⟨1, _⟩ => show win3_1.index t (1 : Fin 2) * 1 + 1 * u.val = (k 1).val; have : (k 1).val < 1 := (k 1).isLt; have := u.isLt; omega

/-- Window 2's block at every point is the whole one-row array. -/
theorem blk2 (c : Dev nD) (t : Fin cfg3.N) (u : Fin 1) (q : Fin 128) (k : S1x128.Idx) (hk1 : (k 1).val = q.val) :
    (iblk3 (F := Ideal) V c 2 t : Vec Ideal S1x128 .f32) (ix2 u q) = (V c main_v41 : S1x128.Idx → EReal) k := by
  obtain ⟨-, -, -, -, e0, e1, -⟩ := idx_facts t
  unfold iblk3
  rw [View.read_apply]
  show V c main_v41 (((cfg3.win 2).blk t).view.emb (ix2 u q)) = V c main_v41 k
  refine congrArg _ (funext fun a => Fin.ext ?_)
  match a with
  | ⟨0, _⟩ => show win3_2.index t (0 : Fin 2) * 1 + 1 * u.val = (k 0).val; have : (k 0).val < 1 := (k 0).isLt; have := u.isLt; omega
  | ⟨1, _⟩ => show win3_2.index t (1 : Fin 2) * 128 + 1 * q.val = (k 1).val; omega

/-- Window 3's block at every point is the whole one-row array. -/
theorem blk3 (c : Dev nD) (t : Fin cfg3.N) (u : Fin 1) (q : Fin 128) (k : S1x128.Idx) (hk1 : (k 1).val = q.val) :
    (iblk3 (F := Ideal) V c 3 t : Vec Ideal S1x128 .f32) (ix2 u q) = (V c main_v42 : S1x128.Idx → EReal) k := by
  obtain ⟨-, -, -, -, -, -, e0, e1, -⟩ := idx_facts t
  unfold iblk3
  rw [View.read_apply]
  show V c main_v42 (((cfg3.win 3).blk t).view.emb (ix2 u q)) = V c main_v42 k
  refine congrArg _ (funext fun a => Fin.ext ?_)
  match a with
  | ⟨0, _⟩ => show win3_3.index t (0 : Fin 2) * 1 + 1 * u.val = (k 0).val; have : (k 0).val < 1 := (k 0).isLt; have := u.isLt; omega
  | ⟨1, _⟩ => show win3_3.index t (1 : Fin 2) * 128 + 1 * q.val = (k 1).val; omega

/-- Window 4's block at every point is the whole one-row array. -/
theorem blk4 (c : Dev nD) (t : Fin cfg3.N) (u : Fin 1) (q : Fin 128) (k : S1x128.Idx) (hk1 : (k 1).val = q.val) :
    (iblk3 (F := Ideal) V c 4 t : Vec Ideal S1x128 .f32) (ix2 u q) = (V c main_v43 : S1x128.Idx → EReal) k := by
  obtain ⟨-, -, -, -, -, -, -, -, e0, e1, -⟩ := idx_facts t
  unfold iblk3
  rw [View.read_apply]
  show V c main_v43 (((cfg3.win 4).blk t).view.emb (ix2 u q)) = V c main_v43 k
  refine congrArg _ (funext fun a => Fin.ext ?_)
  match a with
  | ⟨0, _⟩ => show win3_4.index t (0 : Fin 2) * 1 + 1 * u.val = (k 0).val; have : (k 0).val < 1 := (k 0).isLt; have := u.isLt; omega
  | ⟨1, _⟩ => show win3_4.index t (1 : Fin 2) * 128 + 1 * q.val = (k 1).val; omega

/-- Spec's normalised, rectified entry at a row only looks at that row: two matrices that agree on one row each, with
    gain and offset rows that agree, give the same entries on those rows. -/
theorem lnRelu_row_congr (X : Cert.GcnSpec.Mat 5000 128) (X' : Cert.GcnSpec.Mat 100000 128) (g bt g' bt' : Cert.GcnSpec.Mat 1 128)
    (r : Fin 5000) (r' : Fin 100000) (hX : ∀ k : Fin 128, X (ix2 r k) = X' (ix2 r' k))
    (hg : ∀ k : Fin 128, g (ix2 (0 : Fin 1) k) = g' (ix2 (0 : Fin 1) k))
    (hbt : ∀ k : Fin 128, bt (ix2 (0 : Fin 1) k) = bt' (ix2 (0 : Fin 1) k)) (q : Fin 128) :
    Cert.GcnSpec.lnRelu X g bt (ix2 r q) = Cert.GcnSpec.lnRelu X' g' bt' (ix2 r' q) := by
  have hm : Cert.GcnSpec.rowMean X r = Cert.GcnSpec.rowMean X' r' := by
    unfold Cert.GcnSpec.rowMean
    exact congrArg (Ideal.div · Cert.GcnSpec.c128) (Finset.sum_congr rfl fun k _ => hX k)
  have hv : Cert.GcnSpec.rowVar X r = Cert.GcnSpec.rowVar X' r' := by
    unfold Cert.GcnSpec.rowVar
    rw [hm]
    exact congrArg (Ideal.div · Cert.GcnSpec.c128) (Finset.sum_congr rfl fun k _ => by rw [hX k])
  show max ((g (ix2 (0 : Fin 1) q) * (X (ix2 r q) - Cert.GcnSpec.rowMean X r))
        * Ideal.rsqrt (Cert.GcnSpec.rowVar X r + Cert.GcnSpec.cEps) + bt (ix2 (0 : Fin 1) q)) Cert.GcnSpec.cZero
      = max ((g' (ix2 (0 : Fin 1) q) * (X' (ix2 r' q) - Cert.GcnSpec.rowMean X' r'))
        * Ideal.rsqrt (Cert.GcnSpec.rowVar X' r' + Cert.GcnSpec.cEps) + bt' (ix2 (0 : Fin 1) q)) Cert.GcnSpec.cZero
  rw [hm, hv, hX q, hg q, hbt q]

/-- What point t writes back is block t of the array-level function of the arrays the region finds. -/
theorem flushed_eq (c : Dev nD) (t : Fin cfg3.N) :
    (dat3 (F := Ideal) V c).flushed 5 t = ((cfg3.win 5).blk t).view.read (Elt Ideal)
      (Cert.GcnSpec.lnRelu (Cert.GcnSpec.affine (V c main_v40) (V c main_v14) (V c main_v41)) (V c main_v42) (V c main_v43)) := by
  show (cfg3.win 5).cut (grid3.coords t) ((dat3 V c).after 5 t) = _
  rw [after3_5]
  unfold out3_5
  rw [View.canon_unit_zero hz]
  simp only [View.ld_unit_zero (S := S5000x128) hz, View.ld_unit_zero (S := S5000x1) hz, View.ld_unit_zero (S := S1x128) hz]
  obtain ⟨-, -, -, -, -, -, -, -, -, -, e0, e1⟩ := idx_facts t
  refine funext fun (j : S5000x128.Idx) => ?_
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (iblk3 V c 3 t) (iblk3 V c 4 t) (ix2 p q)
    = Cert.GcnSpec.lnRelu (Cert.GcnSpec.affine (V c main_v40) (V c main_v14) (V c main_v41)) (V c main_v42) (V c main_v43)
        (((cfg3.win 5).blk t).view.emb (ix2 p q))
  refine (pay_apply (iblk3 V c 0 t) (iblk3 V c 1 t) (iblk3 V c 2 t) (iblk3 V c 3 t) (iblk3 V c 4 t) p q).trans ?_
  have h0 : ((((cfg3.win 5).blk t).view.emb (ix2 p q)) 0).val = 5000 * t.val + p.val := by
    show win3_5.index t (0 : Fin 2) * 5000 + 1 * p.val = _; omega
  have h1 : ((((cfg3.win 5).blk t).view.emb (ix2 p q)) 1).val = q.val := by
    show win3_5.index t (1 : Fin 2) * 128 + 1 * q.val = _; omega
  generalize ((cfg3.win 5).blk t).view.emb (ix2 p q) = i at h0 h1
  have hq : (i 1 : Fin 128) = q := Fin.ext h1
  show _ = Cert.GcnSpec.lnRelu (Cert.GcnSpec.affine (V c main_v40) (V c main_v14) (V c main_v41)) (V c main_v42) (V c main_v43) (ix2 (i 0 : Fin 100000) (i 1 : Fin 128))
  rw [hq]
  refine lnRelu_row_congr _ _ _ _ _ _ p (i 0) (fun k => ?_) (fun k => blk3 V c t 0 k _ rfl) (fun k => blk4 V c t 0 k _ rfl) q
  unfold Cert.GcnSpec.affine
  exact congrArg₂ (· + ·) (congrArg₂ (· * ·) (blk0 V c t p k _ h0 rfl) (blk1 V c t p 0 _ h0)) (blk2 V c t 0 k _ rfl)

/-- Row r of the output array lies in the block of point r / 5000. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v44).slice (win3_5.rect t)).set ↔ _
  rw [View.set_slice_whole, Rect.mem_set_unit]
  exact Iff.rfl

/-- The 20 row blocks cover the output array. -/
theorem cover (i : S100000x128.Idx) : ∃ t : Fin cfg3.N, (cfg3.win 5).flush t = true ∧ i ∈ ((cfg3.win 5).blk t).view.set := by
  have hN : cfg3.N = 20 := N_3
  have hi0 : (i 0).val < 100000 := (i 0).isLt
  have hi1 : (i 1).val < 128 := (i 1).isLt
  let t : Fin cfg3.N := ⟨(i 0).val / 5000, by rw [hN]; omega⟩
  obtain ⟨-, -, -, -, -, -, -, -, -, -, e0, e1⟩ := idx_facts t
  have ht : t.val = (i 0).val / 5000 := rfl
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

end Post3

/-- Region 3's output array after its run: the array it finds in window 0 with its rows scaled by window 1's column
    and window 2's row added, every row then normalised with gain window 3 and offset window 4, and rectified. -/
theorem final3 (V : (c : Dev nD) → (b : Ref sig .tc) → Buf (Elt Ideal) ((c : Thread nD τ).loc b)) (c : Dev nD) :
    (dat3 (F := Ideal) V c).arrAt 5 cfg3.N
      = Cert.GcnSpec.lnRelu (Cert.GcnSpec.affine (V c main_v40) (V c main_v14) (V c main_v41)) (V c main_v42) (V c main_v43) :=
  (dat3 (F := Ideal) V c).arrAt_eq_of_cover 5 _ (fun t _ => Post3.flushed_eq V c t) Post3.cover

end Cert.KernelIdeal.Hand

end
-- ==== Proof.Post5.lean ====
/-
  The last region's output array as one function of the arrays it finds.

  Each of the 20 grid points takes 5000 rows of a 100000 × 40 matrix x, the same rows of a one-column matrix s, and
  the whole one-row matrix b, and stores x(r, j) · s(r, 0) + b(0, j) into the same rows of the output. Because that
  value at row r only looks at row r of the inputs, the block a point writes is the block of the array-level function
  (Spec's affine), and the 20 row blocks cover the array; so the array ends holding affine x s b.
-/
import proofs.«181965_j14688788152987_1_alg».proof.Proof.Gen.KernelIdeal.Frame
import proofs.«181965_j14688788152987_1_alg».proof.Proof.Spec
import Idealize.ShloMosaic.Lib.Pipeline.Value
import Idealize.ShloMosaic.Lib.ValueLayout
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

namespace Post5

/-- A one-column matrix broadcast along the columns reads, at (p, c), the operand's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic, entry by entry: row p of the block scaled by its entry of the one-column block, plus the
    one-row block's entry of column q. -/
theorem pay_apply (x0 : Vec Ideal S5000x40 .f32) (x1 : Vec Ideal S5000x1 .f32) (x2 : Vec Ideal S1x40 .f32)
    (p : Fin 5000) (q : Fin 40) :
    k5_pay1 x0 x1 x2 (ix2 p q) = Cert.GcnSpec.affine x0 x1 x2 (ix2 p q) := by
  unfold k5_pay1 Cert.GcnSpec.affine
  simp only [shapeCast_self]
  refine (addf_apply _ _ _).trans ?_
  refine congrArg₂ (· + ·) ((mulf_apply _ _ _).trans (congrArg₂ (· * ·) rfl ?_)) ?_
  · exact broadcastTo_a1_ab_apply x1 _ p q
  · exact broadcastTo_1b_ab_apply x2 _ p q

theorem hz : (![0, 0] : Fin 2 → Nat) = fun _ => 0 := funext fun a => by fin_cases a <;> rfl

/-- The printed index maps over the grid: the row blocks are at block row t, column block 0; the one-row arrays whole. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_5.index t (0 : Fin 2) = t.val ∧ win5_5.index t (1 : Fin 2) = 0 :=
  (by decide +kernel : ∀ t : Fin grid5.N, _)

variable (V : (c : Dev nD) → (b : Ref sig .tc) → Buf (Elt Ideal) ((c : Thread nD τ).loc b))

/-- Window 0's block at point t is rows 5000 t … 5000 t + 4999 of its array. -/
theorem blk0 (c : Dev nD) (t : Fin cfg5.N) (p : Fin 5000) (q : Fin 40) (k : S100000x40.Idx)
    (hk0 : (k 0).val = 5000 * t.val + p.val) (hk1 : (k 1).val = q.val) :
    (iblk5 (F := Ideal) V c 0 t : Vec Ideal S5000x40 .f32) (ix2 p q) = (V c main_v55 : S100000x40.Idx → EReal) k := by
  obtain ⟨e0, e1, -⟩ := idx_facts t
  unfold iblk5
  rw [View.read_apply]
  show V c main_v55 (((cfg5.win 0).blk t).view.emb (ix2 p q)) = V c main_v55 k
  refine congrArg _ (funext fun a => Fin.ext ?_)
  match a with
  | ⟨0, _⟩ => show win5_0.index t (0 : Fin 2) * 5000 + 1 * p.val = (k 0).val; omega
  | ⟨1, _⟩ => show win5_0.index t (1 : Fin 2) * 40 + 1 * q.val = (k 1).val; omega

/-- Window 1's block at point t is the same rows of the one-column array. -/
theorem blk1 (c : Dev nD) (t : Fin cfg5.N) (p : Fin 5000) (u : Fin 1) (k : S100000x1.Idx)
    (hk0 : (k 0).val = 5000 * t.val + p.val) :
    (iblk5 (F := Ideal) V c 1 t : Vec Ideal S5000x1 .f32) (ix2 p u) = (V c main_v14 : S100000x1.Idx → EReal) k := by
  obtain ⟨-, -, e0, e1, -⟩ := idx_facts t
  unfold iblk5
  rw [View.read_apply]
  show V c main_v14 (((cfg5.win 1).blk t).view.emb (ix2 p u)) = V c main_v14 k
  refine congrArg _ (funext fun a => Fin.ext ?_)
  match a with
  | ⟨0, _⟩ => show win5_1.index t (0 : Fin 2) * 5000 + 1 * p.val = (k 0).val; omega
  | ⟨1, _⟩ => show win5_1.index t (1 : Fin 2) * 1 + 1 * u.val = (k 1).val; have : (k 1).val < 1 := (k 1).isLt; have := u.isLt; omega

/-- Window 2's block at every point is the whole one-row array. -/
theorem blk2 (c : Dev nD) (t : Fin cfg5.N) (u : Fin 1) (q : Fin 40) (k : S1x40.Idx) (hk1 : (k 1).val = q.val) :
    (iblk5 (F := Ideal) V c 2 t : Vec Ideal S1x40 .f32) (ix2 u q) = (V c main_v56 : S1x40.Idx → EReal) k := by
  obtain ⟨-, -, -, -, e0, e1, -⟩ := idx_facts t
  unfold iblk5
  rw [View.read_apply]
  show V c main_v56 (((cfg5.win 2).blk t).view.emb (ix2 u q)) = V c main_v56 k
  refine congrArg _ (funext fun a => Fin.ext ?_)
  match a with
  | ⟨0, _⟩ => show win5_2.index t (0 : Fin 2) * 1 + 1 * u.val = (k 0).val; have : (k 0).val < 1 := (k 0).isLt; have := u.isLt; omega
  | ⟨1, _⟩ => show win5_2.index t (1 : Fin 2) * 40 + 1 * q.val = (k 1).val; omega

/-- What point t writes back is block t of the array-level function of the arrays the region finds. -/
theorem flushed_eq (c : Dev nD) (t : Fin cfg5.N) :
    (dat5 (F := Ideal) V c).flushed 5 t = ((cfg5.win 5).blk t).view.read (Elt Ideal)
      (Cert.GcnSpec.affine (V c main_v55) (V c main_v14) (V c main_v56)) := by
  show (cfg5.win 5).cut (grid5.coords t) ((dat5 V c).after 5 t) = _
  rw [after5_5]
  unfold out5_5
  rw [View.canon_unit_zero hz]
  simp only [View.ld_unit_zero (S := S5000x40) hz, View.ld_unit_zero (S := S5000x1) hz, View.ld_unit_zero (S := S1x40) hz]
  obtain ⟨-, -, -, -, -, -, e0, e1⟩ := idx_facts t
  refine funext fun (j : S5000x40.Idx) => ?_
  obtain ⟨p, q, rfl⟩ : ∃ (p : Fin 5000) (q : Fin 40), j = ix2 p q := ⟨j 0, j 1, eq_ix2 j⟩
  show k5_pay1 (iblk5 V c 0 t) (iblk5 V c 1 t) (iblk5 V c 2 t) (ix2 p q)
    = Cert.GcnSpec.affine (V c main_v55) (V c main_v14) (V c main_v56) (((cfg5.win 5).blk t).view.emb (ix2 p q))
  refine (pay_apply (iblk5 V c 0 t) (iblk5 V c 1 t) (iblk5 V c 2 t) p q).trans ?_
  have h0 : ((((cfg5.win 5).blk t).view.emb (ix2 p q)) 0).val = 5000 * t.val + p.val := by
    show win5_5.index t (0 : Fin 2) * 5000 + 1 * p.val = _; omega
  have h1 : ((((cfg5.win 5).blk t).view.emb (ix2 p q)) 1).val = q.val := by
    show win5_5.index t (1 : Fin 2) * 40 + 1 * q.val = _; omega
  generalize ((cfg5.win 5).blk t).view.emb (ix2 p q) = i at h0 h1
  unfold Cert.GcnSpec.affine
  exact congrArg₂ (· + ·) (congrArg₂ (· * ·) (blk0 V c t p q _ h0 h1) (blk1 V c t p 0 _ h0)) (blk2 V c t 0 q _ h1)

/-- Row r of the output array lies in the block of point r / 5000. -/
theorem mem_blk (t : Fin cfg5.N) (i : S100000x40.Idx) :
    i ∈ ((cfg5.win 5).blk t).view.set ↔ ∀ a : Fin 2, win5_5.index t a * S5000x40.size a ≤ (i a).val ∧ (i a).val < win5_5.index t a * S5000x40.size a + S5000x40.size a := by
  show i ∈ ((View.whole main_v59).slice (win5_5.rect t)).set ↔ _
  rw [View.set_slice_whole, Rect.mem_set_unit]
  exact Iff.rfl

theorem cover (i : S100000x40.Idx) : ∃ t : Fin cfg5.N, (cfg5.win 5).flush t = true ∧ i ∈ ((cfg5.win 5).blk t).view.set := by
  have hN : cfg5.N = 20 := N_5
  have hi0 : (i 0).val < 100000 := (i 0).isLt
  have hi1 : (i 1).val < 40 := (i 1).isLt
  let t : Fin cfg5.N := ⟨(i 0).val / 5000, by rw [hN]; omega⟩
  obtain ⟨-, -, -, -, -, -, e0, e1⟩ := idx_facts t
  have ht : t.val = (i 0).val / 5000 := rfl
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 40 ≤ (i 1).val ∧ (i 1).val < win5_5.index t (1 : Fin 2) * 40 + 40; omega

end Post5

/-- Region 5's output array after its run: the rows of the array it finds in window 0 scaled by window 1's column,
    plus window 2's row. -/
theorem final5 (V : (c : Dev nD) → (b : Ref sig .tc) → Buf (Elt Ideal) ((c : Thread nD τ).loc b)) (c : Dev nD) :
    (dat5 (F := Ideal) V c).arrAt 5 cfg5.N = Cert.GcnSpec.affine (V c main_v55) (V c main_v14) (V c main_v56) :=
  (dat5 (F := Ideal) V c).arrAt_eq_of_cover 5 _ (fun t _ => Post5.flushed_eq V c t) Post5.cover

end Cert.KernelIdeal.Hand

end
-- ==== Proof.KChain.lean ====
/-
  The idealized kernel's result as the network of its arguments.

  The run's last boundary contents (Gen.W10) is a fold through the program: each stretch of host operations applies
  its operations to the contents before it, each tiled region replaces its output array by what its write-backs
  leave and keeps every other buffer. Read backwards from the result buffer:
  * region 5 leaves  affine (aggregated product) (target normalisation) (last bias as a row);
  * the stretch before it gathers the rows of region 4's product at the edges' sources and adds them into the rows of
    the edges' targets (aggK40), and lays the bias out as a one-row matrix;
  * region 4 leaves  scaleMatmul (region 3's output) (source normalisation) (third weight matrix);
  * region 3 leaves  lnRelu (affine (aggregated product) (target normalisation) bias) gain offset; and so on down to
  * region 0, which leaves  scaleMatmul features (source normalisation) (first weight matrix),
  * and the first stretch, which computes the two degree normalisations rsqrt (max degree 1) as one-column matrices.
  A buffer that a stretch does not write and a region does not own (or owns as an input window) is the same after it
  as before; that is how the arguments and the two normalisations reach the places where they are used.
-/
import proofs.«181965_j14688788152987_1_alg».proof.Proof.Gen.KernelIdeal.Frame
import proofs.«181965_j14688788152987_1_alg».proof.Proof.Spec
import proofs.«181965_j14688788152987_1_alg».proof.Proof.Pre0
import proofs.«181965_j14688788152987_1_alg».proof.Proof.Pre2
import proofs.«181965_j14688788152987_1_alg».proof.Proof.Pre4
import proofs.«181965_j14688788152987_1_alg».proof.Proof.Post1
import proofs.«181965_j14688788152987_1_alg».proof.Proof.Post3
import proofs.«181965_j14688788152987_1_alg».proof.Proof.Post5
import Idealize.ShloMosaic.Lib.StableHlo.Run

set_option maxRecDepth 16384

noncomputable section

namespace Cert.KernelIdeal.Hand

open Cert.KernelIdeal Cert.KernelIdeal.Gen Cert.GcnSpec
open Idealize.ShloMosaic Idealize.ShloMosaic.TcCoe Idealize.ShloMosaic.StableHlo Idealize.SL.Sem

/-- The edges' sources as a column of indices, a negative index counted from the end. -/
def srcColK (x1 : IVec S1600000 32) : IVec S1600000x1 32 :=
  broadcastInDim S1600000x1 ![0] bcast_S1600000_S1600000x1_0 (select (cmpi .slt x1 (broadcastInDim S1600000 ![] bcast_S_S1600000 (constantI S_ 32 0#32))) (addi x1 (broadcastInDim S1600000 ![] bcast_S_S1600000 (constantI S_ 32 100000#32))) x1)
/-- The edges' targets as a column of indices. -/
def dstColK (x2 : IVec S1600000 32) : IVec S1600000x1 32 := broadcastInDim S1600000x1 ![0] bcast_S1600000_S1600000x1_0 x2
/-- The neighbourhood sum on 128 columns: the rows of h at the edges' sources, added into the rows of a zero matrix at the
    edges' targets. -/
def aggK128 (x1 x2 : IVec S1600000 32) (h : Mat 100000 128) : Mat 100000 128 :=
  Host.scatterAdd scatter_S100000x128_S1600000x1_S1600000x128_1_0_0_1 (broadcastInDim S100000x128 ![] bcast_S_S100000x128 (constant (F := Ideal) S_ .f32 0x00000000#32)) (dstColK x2) (Host.gather gather_S100000x128_S1600000x1_S1600000x128_1_0_n_n_0_1_1128 h (srcColK x1))
/-- The same on 40 columns. -/
def aggK40 (x1 x2 : IVec S1600000 32) (h : Mat 100000 40) : Mat 100000 40 :=
  Host.scatterAdd scatter_S100000x40_S1600000x1_S1600000x40_1_0_0_1 (broadcastInDim S100000x40 ![] bcast_S_S100000x40 (constant (F := Ideal) S_ .f32 0x00000000#32)) (dstColK x2) (Host.gather gather_S100000x40_S1600000x1_S1600000x40_1_0_n_n_0_1_140 h (srcColK x1))
/-- rsqrt (max degree 1) as a one-column matrix, the degree of a node counting its occurrences among the indices x. -/
def degNormK (x : IVec S1600000 32) : Mat 100000 1 :=
  broadcastInDim S100000x1 ![0] bcast_S100000_S100000x1_0 (Host.rsqrt (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 x) (broadcastInDim S1600000 ![] bcast_S_S1600000 (constant (F := Ideal) S_ .f32 0x3F800000#32))) (broadcastInDim S100000 ![] bcast_S_S100000 (constant (F := Ideal) S_ .f32 0x3F800000#32))))
/-- A vector of 128 entries as a one-row matrix. -/
def rowK128 (v : FVec Ideal S128 .f32) : Mat 1 128 := shapeCast S1x128 v shapeCasts_S128_S1x128
/-- A vector of 40 entries as a one-row matrix. -/
def rowK40 (v : FVec Ideal S40 .f32) : Mat 1 40 := shapeCast S1x40 v shapeCasts_S40_S1x40

/-- A buffer that no operation of a stretch writes holds after the stretch what it held before. -/
macro "host_keep " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg)

/-! ## After the first stretch: the two degree normalisations, the arguments untouched -/

theorem W1_v10 (c : Dev nD) : W1 m ρ c (Proc.devRef .tc main_v10) = degNormK (m ((c : Thread nD τ).loc main_arg1)) := by
  show StableHlo.after hostOps0 (W0 m ρ c) (Proc.devRef .tc main_v10) = _
  after_results
  rfl

theorem W1_v14 (c : Dev nD) : W1 m ρ c (Proc.devRef .tc main_v14) = degNormK (m ((c : Thread nD τ).loc main_arg2)) := by
  show StableHlo.after hostOps0 (W0 m ρ c) (Proc.devRef .tc main_v14) = _
  after_results
  rfl

set_option maxHeartbeats 4000000 in
theorem W1_arg (c : Dev nD) (b : Ref sig .tc) (hb : b ∈ ([main_arg0, main_arg1, main_arg2, main_arg3, main_arg4, main_arg5, main_arg6, main_arg7, main_arg8, main_arg9, main_arg10, main_arg11, main_arg12] : List (Ref sig .tc))) :
    W1 m ρ c (Proc.devRef .tc b) = m ((c : Thread nD τ).loc b) := by
  refine Eq.trans (b := W0 m ρ c (Proc.devRef .tc b)) ?_ rfl
  simp only [List.mem_cons, List.mem_nil_iff, or_false] at hb
  rcases hb with rfl | rfl | rfl | rfl | rfl | rfl | rfl | rfl | rfl | rfl | rfl | rfl | rfl <;>
  host_keep hostOps0

/-! ## Region 0: the features' rows scaled by the source normalisation, times the first weight matrix -/

theorem W2_v15 (c : Dev nD) : W2 m ρ c (Proc.devRef .tc main_v15) = scaleMatmul (m ((c : Thread nD τ).loc main_arg0)) (degNormK (m ((c : Thread nD τ).loc main_arg1))) (m ((c : Thread nD τ).loc main_arg3)) := by
  refine (W2_arr m ρ c 3).trans ((final0 (V1 m ρ) c).trans ?_)
  show scaleMatmul (W1 m ρ c (Proc.devRef .tc main_arg0)) (W1 m ρ c (Proc.devRef .tc main_v10)) (W1 m ρ c (Proc.devRef .tc main_arg3)) = _
  rw [W1_arg m ρ c main_arg0 (by decide), W1_v10, W1_arg m ρ c main_arg3 (by decide)]

theorem W2_arg (c : Dev nD) (b : Ref sig .tc) (hb : b ∈ ([main_arg1, main_arg2, main_arg4, main_arg5, main_arg6, main_arg7, main_arg8, main_arg9, main_arg10, main_arg11, main_arg12] : List (Ref sig .tc))) :
    W2 m ρ c (Proc.devRef .tc b) = m ((c : Thread nD τ).loc b) := by
  simp only [List.mem_cons, List.mem_nil_iff, or_false] at hb
  rcases hb with rfl | rfl | rfl | rfl | rfl | rfl | rfl | rfl | rfl | rfl | rfl <;>
  exact (W2_of_ne m ρ c _ (by decide)).trans (W1_arg m ρ c _ (by decide))

theorem W2_v10 (c : Dev nD) : W2 m ρ c (Proc.devRef .tc main_v10) = degNormK (m ((c : Thread nD τ).loc main_arg1)) :=
  ((W2_arr m ρ c 1).trans (((dat0 (V1 m ρ) c).arrAt_in 1 rfl _).trans (A_eq0 (V1 m ρ) c 1))).trans (W1_v10 m ρ c)

theorem W2_v14 (c : Dev nD) : W2 m ρ c (Proc.devRef .tc main_v14) = degNormK (m ((c : Thread nD τ).loc main_arg2)) :=
  (W2_of_ne m ρ c main_v14 (by decide)).trans (W1_v14 m ρ c)

/-! ## The second stretch: the first aggregation, and the first layer's three vectors as rows -/

theorem W3_v25 (c : Dev nD) : W3 m ρ c (Proc.devRef .tc main_v25) = aggK128 (W2 m ρ c (Proc.devRef .tc main_arg1)) (W2 m ρ c (Proc.devRef .tc main_arg2)) (W2 m ρ c (Proc.devRef .tc main_v15)) := by
  show StableHlo.after hostOps1 (W2 m ρ c) (Proc.devRef .tc main_v25) = _
  after_results
  rfl

theorem W3_v26 (c : Dev nD) : W3 m ρ c (Proc.devRef .tc main_v26) = rowK128 (W2 m ρ c (Proc.devRef .tc main_arg4)) := by
  show StableHlo.after hostOps1 (W2 m ρ c) (Proc.devRef .tc main_v26) = _
  after_results
  rfl

theorem W3_v27 (c : Dev nD) : W3 m ρ c (Proc.devRef .tc main_v27) = rowK128 (W2 m ρ c (Proc.devRef .tc main_arg5)) := by
  show StableHlo.after hostOps1 (W2 m ρ c) (Proc.devRef .tc main_v27) = _
  after_results
  rfl

theorem W3_v28 (c : Dev nD) : W3 m ρ c (Proc.devRef .tc main_v28) = rowK128 (W2 m ρ c (Proc.devRef .tc main_arg6)) := by
  show StableHlo.after hostOps1 (W2 m ρ c) (Proc.devRef .tc main_v28) = _
  after_results
  rfl

set_option maxHeartbeats 4000000 in
theorem W3_arg (c : Dev nD) (b : Ref sig .tc) (hb : b ∈ ([main_arg1, main_arg2, main_arg7, main_arg8, main_arg9, main_arg10, main_arg11, main_arg12] : List (Ref sig .tc))) :
    W3 m ρ c (Proc.devRef .tc b) = m ((c : Thread nD τ).loc b) := by
  refine Eq.trans (b := W2 m ρ c (Proc.devRef .tc b)) ?_ (W2_arg m ρ c b (by
    simp only [List.mem_cons, List.mem_nil_iff, or_false] at hb ⊢
    rcases hb with rfl | rfl | rfl | rfl | rfl | rfl | rfl | rfl <;> simp))
  simp only [List.mem_cons, List.mem_nil_iff, or_false] at hb
  rcases hb with rfl | rfl | rfl | rfl | rfl | rfl | rfl | rfl <;>
  host_keep hostOps1

theorem W3_v10 (c : Dev nD) : W3 m ρ c (Proc.devRef .tc main_v10) = degNormK (m ((c : Thread nD τ).loc main_arg1)) :=
  Eq.trans (b := W2 m ρ c (Proc.devRef .tc main_v10)) (by host_keep hostOps1) (W2_v10 m ρ c)

theorem W3_v14 (c : Dev nD) : W3 m ρ c (Proc.devRef .tc main_v14) = degNormK (m ((c : Thread nD τ).loc main_arg2)) :=
  Eq.trans (b := W2 m ρ c (Proc.devRef .tc main_v14)) (by host_keep hostOps1) (W2_v14 m ρ c)

/-! ## Region 1: scale by the target normalisation, add the bias, normalise every row, positive part -/

theorem W4_v29 (c : Dev nD) : W4 m ρ c (Proc.devRef .tc main_v29) = lnRelu (affine (aggK128 (m ((c : Thread nD τ).loc main_arg1)) (m ((c : Thread nD τ).loc main_arg2)) (scaleMatmul (m ((c : Thread nD τ).loc main_arg0)) (degNormK (m ((c : Thread nD τ).loc main_arg1))) (m ((c : Thread nD τ).loc main_arg3)))) (degNormK (m ((c : Thread nD τ).loc main_arg2))) (rowK128 (m ((c : Thread nD τ).loc main_arg4)))) (rowK128 (m ((c : Thread nD τ).loc main_arg5))) (rowK128 (m ((c : Thread nD τ).loc main_arg6))) := by
  refine (W4_arr m ρ c 5).trans ((final1 (V3 m ρ) c).trans ?_)
  show lnRelu (affine (W3 m ρ c (Proc.devRef .tc main_v25)) (W3 m ρ c (Proc.devRef .tc main_v14)) (W3 m ρ c (Proc.devRef .tc main_v26))) (W3 m ρ c (Proc.devRef .tc main_v27)) (W3 m ρ c (Proc.devRef .tc main_v28)) = _
  rw [W3_v25, W3_v14, W3_v26, W3_v27, W3_v28, W2_arg m ρ c main_arg1 (by decide), W2_arg m ρ c main_arg2 (by decide),
    W2_arg m ρ c main_arg4 (by decide), W2_arg m ρ c main_arg5 (by decide), W2_arg m ρ c main_arg6 (by decide), W2_v15]

theorem W4_arg (c : Dev nD) (b : Ref sig .tc) (hb : b ∈ ([main_arg1, main_arg2, main_arg7, main_arg8, main_arg9, main_arg10, main_arg11, main_arg12] : List (Ref sig .tc))) :
    W4 m ρ c (Proc.devRef .tc b) = m ((c : Thread nD τ).loc b) := by
  simp only [List.mem_cons, List.mem_nil_iff, or_false] at hb
  rcases hb with rfl | rfl | rfl | rfl | rfl | rfl | rfl | rfl <;>
  exact (W4_of_ne m ρ c _ (by decide)).trans (W3_arg m ρ c _ (by decide))

theorem W4_v10 (c : Dev nD) : W4 m ρ c (Proc.devRef .tc main_v10) = degNormK (m ((c : Thread nD τ).loc main_arg1)) :=
  (W4_of_ne m ρ c main_v10 (by decide)).trans (W3_v10 m ρ c)

theorem W4_v14 (c : Dev nD) : W4 m ρ c (Proc.devRef .tc main_v14) = degNormK (m ((c : Thread nD τ).loc main_arg2)) :=
  ((W4_arr m ρ c 1).trans (((dat1 (V3 m ρ) c).arrAt_in 1 rfl _).trans (A_eq1 (V3 m ρ) c 1))).trans (W3_v14 m ρ c)

/-! ## Region 2: the second layer's scaled product -/

theorem W5_v30 (c : Dev nD) : W5 m ρ c (Proc.devRef .tc main_v30) = scaleMatmul (lnRelu (affine (aggK128 (m ((c : Thread nD τ).loc main_arg1)) (m ((c : Thread nD τ).loc main_arg2)) (scaleMatmul (m ((c : Thread nD τ).loc main_arg0)) (degNormK (m ((c : Thread nD τ).loc main_arg1))) (m ((c : Thread nD τ).loc main_arg3)))) (degNormK (m ((c : Thread nD τ).loc main_arg2))) (rowK128 (m ((c : Thread nD τ).loc main_arg4)))) (rowK128 (m ((c : Thread nD τ).loc main_arg5))) (rowK128 (m ((c : Thread nD τ).loc main_arg6)))) (degNormK (m ((c : Thread nD τ).loc main_arg1))) (m ((c : Thread nD τ).loc main_arg7)) := by
  refine (W5_arr m ρ c 3).trans ((final2 (V4 m ρ) c).trans ?_)
  show scaleMatmul (W4 m ρ c (Proc.devRef .tc main_v29)) (W4 m ρ c (Proc.devRef .tc main_v10)) (W4 m ρ c (Proc.devRef .tc main_arg7)) = _
  rw [W4_v29, W4_v10, W4_arg m ρ c main_arg7 (by decide)]

theorem W5_arg (c : Dev nD) (b : Ref sig .tc) (hb : b ∈ ([main_arg1, main_arg2, main_arg8, main_arg9, main_arg10, main_arg11, main_arg12] : List (Ref sig .tc))) :
    W5 m ρ c (Proc.devRef .tc b) = m ((c : Thread nD τ).loc b) := by
  simp only [List.mem_cons, List.mem_nil_iff, or_false] at hb
  rcases hb with rfl | rfl | rfl | rfl | rfl | rfl | rfl <;>
  exact (W5_of_ne m ρ c _ (by decide)).trans (W4_arg m ρ c _ (by decide))

theorem W5_v10 (c : Dev nD) : W5 m ρ c (Proc.devRef .tc main_v10) = degNormK (m ((c : Thread nD τ).loc main_arg1)) :=
  ((W5_arr m ρ c 1).trans (((dat2 (V4 m ρ) c).arrAt_in 1 rfl _).trans (A_eq2 (V4 m ρ) c 1))).trans (W4_v10 m ρ c)

theorem W5_v14 (c : Dev nD) : W5 m ρ c (Proc.devRef .tc main_v14) = degNormK (m ((c : Thread nD τ).loc main_arg2)) :=
  (W5_of_ne m ρ c main_v14 (by decide)).trans (W4_v14 m ρ c)

/-! ## The third stretch: the second aggregation, the second layer's vectors as rows -/

theorem W6_v40 (c : Dev nD) : W6 m ρ c (Proc.devRef .tc main_v40) = aggK128 (W5 m ρ c (Proc.devRef .tc main_arg1)) (W5 m ρ c (Proc.devRef .tc main_arg2)) (W5 m ρ c (Proc.devRef .tc main_v30)) := by
  show StableHlo.after hostOps3 (W5 m ρ c) (Proc.devRef .tc main_v40) = _
  after_results
  rfl

theorem W6_v41 (c : Dev nD) : W6 m ρ c (Proc.devRef .tc main_v41) = rowK128 (W5 m ρ c (Proc.devRef .tc main_arg8)) := by
  show StableHlo.after hostOps3 (W5 m ρ c) (Proc.devRef .tc main_v41) = _
  after_results
  rfl

theorem W6_v42 (c : Dev nD) : W6 m ρ c (Proc.devRef .tc main_v42) = rowK128 (W5 m ρ c (Proc.devRef .tc main_arg9)) := by
  show StableHlo.after hostOps3 (W5 m ρ c) (Proc.devRef .tc main_v42) = _
  after_results
  rfl

theorem W6_v43 (c : Dev nD) : W6 m ρ c (Proc.devRef .tc main_v43) = rowK128 (W5 m ρ c (Proc.devRef .tc main_arg10)) := by
  show StableHlo.after hostOps3 (W5 m ρ c) (Proc.devRef .tc main_v43) = _
  after_results
  rfl

set_option maxHeartbeats 4000000 in
theorem W6_arg (c : Dev nD) (b : Ref sig .tc) (hb : b ∈ ([main_arg1, main_arg2, main_arg11, main_arg12] : List (Ref sig .tc))) :
    W6 m ρ c (Proc.devRef .tc b) = m ((c : Thread nD τ).loc b) := by
  refine Eq.trans (b := W5 m ρ c (Proc.devRef .tc b)) ?_ (W5_arg m ρ c b (by
    simp only [List.mem_cons, List.mem_nil_iff, or_false] at hb ⊢
    rcases hb with rfl | rfl | rfl | rfl <;> simp))
  simp only [List.mem_cons, List.mem_nil_iff, or_false] at hb
  rcases hb with rfl | rfl | rfl | rfl <;>
  host_keep hostOps3

theorem W6_v10 (c : Dev nD) : W6 m ρ c (Proc.devRef .tc main_v10) = degNormK (m ((c : Thread nD τ).loc main_arg1)) :=
  Eq.trans (b := W5 m ρ c (Proc.devRef .tc main_v10)) (by host_keep hostOps3) (W5_v10 m ρ c)

theorem W6_v14 (c : Dev nD) : W6 m ρ c (Proc.devRef .tc main_v14) = degNormK (m ((c : Thread nD τ).loc main_arg2)) :=
  Eq.trans (b := W5 m ρ c (Proc.devRef .tc main_v14)) (by host_keep hostOps3) (W5_v14 m ρ c)

/-! ## Region 3 -/

theorem W7_v44 (c : Dev nD) : W7 m ρ c (Proc.devRef .tc main_v44) = lnRelu (affine (aggK128 (m ((c : Thread nD τ).loc main_arg1)) (m ((c : Thread nD τ).loc main_arg2)) (scaleMatmul (lnRelu (affine (aggK128 (m ((c : Thread nD τ).loc main_arg1)) (m ((c : Thread nD τ).loc main_arg2)) (scaleMatmul (m ((c : Thread nD τ).loc main_arg0)) (degNormK (m ((c : Thread nD τ).loc main_arg1))) (m ((c : Thread nD τ).loc main_arg3)))) (degNormK (m ((c : Thread nD τ).loc main_arg2))) (rowK128 (m ((c : Thread nD τ).loc main_arg4)))) (rowK128 (m ((c : Thread nD τ).loc main_arg5))) (rowK128 (m ((c : Thread nD τ).loc main_arg6)))) (degNormK (m ((c : Thread nD τ).loc main_arg1))) (m ((c : Thread nD τ).loc main_arg7)))) (degNormK (m ((c : Thread nD τ).loc main_arg2))) (rowK128 (m ((c : Thread nD τ).loc main_arg8)))) (rowK128 (m ((c : Thread nD τ).loc main_arg9))) (rowK128 (m ((c : Thread nD τ).loc main_arg10))) := by
  refine (W7_arr m ρ c 5).trans ((final3 (V6 m ρ) c).trans ?_)
  show lnRelu (affine (W6 m ρ c (Proc.devRef .tc main_v40)) (W6 m ρ c (Proc.devRef .tc main_v14)) (W6 m ρ c (Proc.devRef .tc main_v41))) (W6 m ρ c (Proc.devRef .tc main_v42)) (W6 m ρ c (Proc.devRef .tc main_v43)) = _
  rw [W6_v40, W6_v14, W6_v41, W6_v42, W6_v43, W5_arg m ρ c main_arg1 (by decide), W5_arg m ρ c main_arg2 (by decide),
    W5_arg m ρ c main_arg8 (by decide), W5_arg m ρ c main_arg9 (by decide), W5_arg m ρ c main_arg10 (by decide), W5_v30]

theorem W7_arg (c : Dev nD) (b : Ref sig .tc) (hb : b ∈ ([main_arg1, main_arg2, main_arg11, main_arg12] : List (Ref sig .tc))) :
    W7 m ρ c (Proc.devRef .tc b) = m ((c : Thread nD τ).loc b) := by
  simp only [List.mem_cons, List.mem_nil_iff, or_false] at hb
  rcases hb with rfl | rfl | rfl | rfl <;>
  exact (W7_of_ne m ρ c _ (by decide)).trans (W6_arg m ρ c _ (by decide))

theorem W7_v10 (c : Dev nD) : W7 m ρ c (Proc.devRef .tc main_v10) = degNormK (m ((c : Thread nD τ).loc main_arg1)) :=
  (W7_of_ne m ρ c main_v10 (by decide)).trans (W6_v10 m ρ c)

theorem W7_v14 (c : Dev nD) : W7 m ρ c (Proc.devRef .tc main_v14) = degNormK (m ((c : Thread nD τ).loc main_arg2)) :=
  ((W7_arr m ρ c 1).trans (((dat3 (V6 m ρ) c).arrAt_in 1 rfl _).trans (A_eq3 (V6 m ρ) c 1))).trans (W6_v14 m ρ c)

/-! ## Region 4: the last layer's scaled product, onto 40 columns -/

theorem W8_v45 (c : Dev nD) : W8 m ρ c (Proc.devRef .tc main_v45) = scaleMatmul (lnRelu (affine (aggK128 (m ((c : Thread nD τ).loc main_arg1)) (m ((c : Thread nD τ).loc main_arg2)) (scaleMatmul (lnRelu (affine (aggK128 (m ((c : Thread nD τ).loc main_arg1)) (m ((c : Thread nD τ).loc main_arg2)) (scaleMatmul (m ((c : Thread nD τ).loc main_arg0)) (degNormK (m ((c : Thread nD τ).loc main_arg1))) (m ((c : Thread nD τ).loc main_arg3)))) (degNormK (m ((c : Thread nD τ).loc main_arg2))) (rowK128 (m ((c : Thread nD τ).loc main_arg4)))) (rowK128 (m ((c : Thread nD τ).loc main_arg5))) (rowK128 (m ((c : Thread nD τ).loc main_arg6)))) (degNormK (m ((c : Thread nD τ).loc main_arg1))) (m ((c : Thread nD τ).loc main_arg7)))) (degNormK (m ((c : Thread nD τ).loc main_arg2))) (rowK128 (m ((c : Thread nD τ).loc main_arg8)))) (rowK128 (m ((c : Thread nD τ).loc main_arg9))) (rowK128 (m ((c : Thread nD τ).loc main_arg10)))) (degNormK (m ((c : Thread nD τ).loc main_arg1))) (m ((c : Thread nD τ).loc main_arg11)) := by
  refine (W8_arr m ρ c 3).trans ((final4 (V7 m ρ) c).trans ?_)
  show scaleMatmul (W7 m ρ c (Proc.devRef .tc main_v44)) (W7 m ρ c (Proc.devRef .tc main_v10)) (W7 m ρ c (Proc.devRef .tc main_arg11)) = _
  rw [W7_v44, W7_v10, W7_arg m ρ c main_arg11 (by decide)]

theorem W8_arg (c : Dev nD) (b : Ref sig .tc) (hb : b ∈ ([main_arg1, main_arg2, main_arg12] : List (Ref sig .tc))) :
    W8 m ρ c (Proc.devRef .tc b) = m ((c : Thread nD τ).loc b) := by
  simp only [List.mem_cons, List.mem_nil_iff, or_false] at hb
  rcases hb with rfl | rfl | rfl <;>
  exact (W8_of_ne m ρ c _ (by decide)).trans (W7_arg m ρ c _ (by decide))

theorem W8_v14 (c : Dev nD) : W8 m ρ c (Proc.devRef .tc main_v14) = degNormK (m ((c : Thread nD τ).loc main_arg2)) :=
  (W8_of_ne m ρ c main_v14 (by decide)).trans (W7_v14 m ρ c)

/-! ## The last stretch: the third aggregation, the last bias as a row -/

set_option maxHeartbeats 4000000 in
theorem W9_v55 (c : Dev nD) : W9 m ρ c (Proc.devRef .tc main_v55) = aggK40 (W8 m ρ c (Proc.devRef .tc main_arg1)) (W8 m ρ c (Proc.devRef .tc main_arg2)) (W8 m ρ c (Proc.devRef .tc main_v45)) := by
  show StableHlo.after hostOps5 (W8 m ρ c) (Proc.devRef .tc main_v55) = _
  after_results
  rfl

set_option maxHeartbeats 4000000 in
theorem W9_v56 (c : Dev nD) : W9 m ρ c (Proc.devRef .tc main_v56) = rowK40 (W8 m ρ c (Proc.devRef .tc main_arg12)) := by
  show StableHlo.after hostOps5 (W8 m ρ c) (Proc.devRef .tc main_v56) = _
  after_results
  rfl

theorem W9_v14 (c : Dev nD) : W9 m ρ c (Proc.devRef .tc main_v14) = degNormK (m ((c : Thread nD τ).loc main_arg2)) :=
  Eq.trans (b := W8 m ρ c (Proc.devRef .tc main_v14)) (by host_keep hostOps5) (W8_v14 m ρ c)

/-! ## Region 5, and the whole network -/

theorem W10_v59 (c : Dev nD) : W10 m ρ c (Proc.devRef .tc main_v59) = affine (aggK40 (m ((c : Thread nD τ).loc main_arg1)) (m ((c : Thread nD τ).loc main_arg2)) (scaleMatmul (lnRelu (affine (aggK128 (m ((c : Thread nD τ).loc main_arg1)) (m ((c : Thread nD τ).loc main_arg2)) (scaleMatmul (lnRelu (affine (aggK128 (m ((c : Thread nD τ).loc main_arg1)) (m ((c : Thread nD τ).loc main_arg2)) (scaleMatmul (m ((c : Thread nD τ).loc main_arg0)) (degNormK (m ((c : Thread nD τ).loc main_arg1))) (m ((c : Thread nD τ).loc main_arg3)))) (degNormK (m ((c : Thread nD τ).loc main_arg2))) (rowK128 (m ((c : Thread nD τ).loc main_arg4)))) (rowK128 (m ((c : Thread nD τ).loc main_arg5))) (rowK128 (m ((c : Thread nD τ).loc main_arg6)))) (degNormK (m ((c : Thread nD τ).loc main_arg1))) (m ((c : Thread nD τ).loc main_arg7)))) (degNormK (m ((c : Thread nD τ).loc main_arg2))) (rowK128 (m ((c : Thread nD τ).loc main_arg8)))) (rowK128 (m ((c : Thread nD τ).loc main_arg9))) (rowK128 (m ((c : Thread nD τ).loc main_arg10)))) (degNormK (m ((c : Thread nD τ).loc main_arg1))) (m ((c : Thread nD τ).loc main_arg11)))) (degNormK (m ((c : Thread nD τ).loc main_arg2))) (rowK40 (m ((c : Thread nD τ).loc main_arg12))) := by
  refine (W10_arr m ρ c 5).trans ((final5 (V9 m ρ) c).trans ?_)
  show affine (W9 m ρ c (Proc.devRef .tc main_v55)) (W9 m ρ c (Proc.devRef .tc main_v14)) (W9 m ρ c (Proc.devRef .tc main_v56)) = _
  rw [W9_v55, W9_v14, W9_v56, W8_arg m ρ c main_arg1 (by decide), W8_arg m ρ c main_arg2 (by decide),
    W8_arg m ρ c main_arg12 (by decide), W8_v45]

/-- The result buffer at the end of the run is the three-layer network of the launch arguments. -/
theorem kernel_net (c : Dev nD) : W10 m ρ c (Proc.devRef .tc main_v59)
    = net (aggK128 (m ((c : Thread nD τ).loc main_arg1)) (m ((c : Thread nD τ).loc main_arg2))) (aggK40 (m ((c : Thread nD τ).loc main_arg1)) (m ((c : Thread nD τ).loc main_arg2))) (degNormK (m ((c : Thread nD τ).loc main_arg1))) (degNormK (m ((c : Thread nD τ).loc main_arg2)))
        (m ((c : Thread nD τ).loc main_arg0)) (m ((c : Thread nD τ).loc main_arg3)) (rowK128 (m ((c : Thread nD τ).loc main_arg4))) (rowK128 (m ((c : Thread nD τ).loc main_arg5))) (rowK128 (m ((c : Thread nD τ).loc main_arg6)))
        (m ((c : Thread nD τ).loc main_arg7)) (rowK128 (m ((c : Thread nD τ).loc main_arg8))) (rowK128 (m ((c : Thread nD τ).loc main_arg9))) (rowK128 (m ((c : Thread nD τ).loc main_arg10))) (m ((c : Thread nD τ).loc main_arg11)) (rowK40 (m ((c : Thread nD τ).loc main_arg12))) :=
  W10_v59 m ρ c

end Cert.KernelIdeal.Hand

end
-- ==== Proof.RefLN.lean ====
/-
  Layer normalisation followed by the positive part, as the reference computes it, is the specification's lnRelu.

  In each of the two hidden layers the reference forms x = aggregate * (target normalisation) + offset, then per
  row the mean m = (sum of the row) / 128, the variance v = (sum of the squares of x - m) / 128, and returns
  max (gain * (x - m) * rsqrt (v + eps) + shift) 0. Its sums start from the zero word, which is the extended
  real 0, so each is the plain sum over the 128 columns. The two layers have the same text with other stages.
-/
import proofs.«181965_j14688788152987_1_alg».proof.Proof.Gen.ReferenceIdeal.Read
import proofs.«181965_j14688788152987_1_alg».proof.Proof.Spec
import Idealize.ShloMosaic.Lib.ValueIdx
import Idealize.ShloMosaic.PureOps.Ideal

noncomputable section

open scoped BigOperators

namespace Cert.ReferenceIdeal.Hand

open Cert.ReferenceIdeal Cert.ReferenceIdeal.Gen Cert.ReferenceIdeal.Read Idealize.ShloMosaic Idealize.ShloMosaic.ValueIdx Cert.GcnSpec

/-! The specification's affine step and normalisation read at an explicit index. -/

theorem affine_at {R N : Nat} (x : Mat R N) (s : Mat R 1) (b : Mat 1 N) (p : Fin R) (q : Fin N) :
    affine x s b (ix2 p q) = x (ix2 p q) * s (ix2 p (0 : Fin 1)) + b (ix2 (0 : Fin 1) q) := rfl

theorem lnRelu_at {R N : Nat} (x : Mat R N) (g bt : Mat 1 N) (p : Fin R) (q : Fin N) :
    lnRelu x g bt (ix2 p q)
      = max ((g (ix2 (0 : Fin 1) q) * (x (ix2 p q) - Ideal.div (∑ j : Fin N, x (ix2 p j)) c128))
          * Ideal.rsqrt (Ideal.div (∑ j : Fin N, (x (ix2 p j) - Ideal.div (∑ j : Fin N, x (ix2 p j)) c128)
              * (x (ix2 p j) - Ideal.div (∑ j : Fin N, x (ix2 p j)) c128)) c128 + cEps)
          + bt (ix2 (0 : Fin 1) q)) cZero := rfl

/-! The reference's index functions at explicit coordinates (first hidden layer). -/

section idx
variable (p : Fin 100000) (q k : Fin 128)
theorem col_v28 : idx_main_v28 (ix2 p q) = ix2 p (0 : Fin 1) := funext fun a => Fin.ext (by match a with | ⟨0, _⟩ => rfl | ⟨1, _⟩ => rfl)
theorem col_v37 : idx_main_v37 (ix2 p q) = ix2 p (0 : Fin 1) := funext fun a => Fin.ext (by match a with | ⟨0, _⟩ => rfl | ⟨1, _⟩ => rfl)
theorem col_v44 : idx_main_v44 (ix2 p q) = ix2 p (0 : Fin 1) := funext fun a => Fin.ext (by match a with | ⟨0, _⟩ => rfl | ⟨1, _⟩ => rfl)
theorem col_v52 : idx_main_v52 (ix2 p q) = ix2 p (0 : Fin 1) := funext fun a => Fin.ext (by match a with | ⟨0, _⟩ => rfl | ⟨1, _⟩ => rfl)
theorem row_v31 : idx_main_v31 (ix2 p q) = ix2 (0 : Fin 1) q := funext fun a => Fin.ext (by match a with | ⟨0, _⟩ => rfl | ⟨1, _⟩ => rfl)
theorem row_v47 : idx_main_v47 (ix2 p q) = ix2 (0 : Fin 1) q := funext fun a => Fin.ext (by match a with | ⟨0, _⟩ => rfl | ⟨1, _⟩ => rfl)
theorem row_v55 : idx_main_v55 (ix2 p q) = ix2 (0 : Fin 1) q := funext fun a => Fin.ext (by match a with | ⟨0, _⟩ => rfl | ⟨1, _⟩ => rfl)
theorem vec_v34 : idx_main_v34 (ix2 p (0 : Fin 1)) = ix1 p := funext fun a => Fin.ext (by match a with | ⟨0, _⟩ => rfl)
theorem vec_v41 : idx_main_v41 (ix2 p (0 : Fin 1)) = ix1 p := funext fun a => Fin.ext (by match a with | ⟨0, _⟩ => rfl)
theorem ent_v33 : idx_main_v33 (ix1 p) k = ix2 p k := funext fun a => Fin.ext (by match a with | ⟨0, _⟩ => rfl | ⟨1, _⟩ => rfl)
theorem ent_v40 : idx_main_v40 (ix1 p) k = ix2 p k := funext fun a => Fin.ext (by match a with | ⟨0, _⟩ => rfl | ⟨1, _⟩ => rfl)
end idx

/-! The first hidden layer. -/

section layer1
variable (x0 : (⟨S100000x256, .f32⟩ : BufTy).Contents (Elt Ideal)) (x1 x2 : (⟨S1600000, .i32⟩ : BufTy).Contents (Elt Ideal))
  (x3 : (⟨S256x128, .f32⟩ : BufTy).Contents (Elt Ideal)) (x4 x5 x6 : (⟨S128, .f32⟩ : BufTy).Contents (Elt Ideal))

theorem affine_v32 :
    val_main_v32 (F := Ideal) x0 x1 x2 x3 x4
      = affine (val_main_v26 (F := Ideal) x0 x1 x2 x3) (val_main_v27 (F := Ideal) x2) (val_main_v30 (F := Ideal) x4) := by
  funext i
  obtain ⟨p, q, rfl⟩ : ∃ (p : Fin 100000) (q : Fin 128), i = ix2 p q := ⟨i 0, i 1, eq_ix2 i⟩
  rw [val_main_v32_apply, val_main_v29_apply, val_main_v28_apply, val_main_v31_apply, affine_at, Ideal.addf_def,
    Ideal.mulf_def, col_v28, row_v31]

/-- the row mean: the row's sum divided by 128 -/
theorem mean_v36 (p : Fin 100000) :
    val_main_v36 (F := Ideal) x0 x1 x2 x3 x4 (ix2 p (0 : Fin 1))
      = Ideal.div (∑ j : Fin 128, val_main_v32 (F := Ideal) x0 x1 x2 x3 x4 (ix2 p j)) c128 := by
  rw [val_main_v36_apply, val_main_v34_apply, val_main_v35_apply, val_main_cst_7_apply, val_main_v33_apply,
    val_main_cst_6_apply, Ideal.hostDivf_def, Ideal.ofBits_def, Ideal.ofBits_def, Ideal.ofBits_zero_f32, zero_add, vec_v34]
  refine congrArg (fun t => Ideal.div t c128) (Finset.sum_congr rfl fun k _ => ?_)
  rw [ent_v33]

/-- the row variance: the sum of the squared deviations from the mean, divided by 128 -/
theorem var_v43 (p : Fin 100000) :
    val_main_v43 (F := Ideal) x0 x1 x2 x3 x4 (ix2 p (0 : Fin 1))
      = Ideal.div (∑ j : Fin 128,
          (val_main_v32 (F := Ideal) x0 x1 x2 x3 x4 (ix2 p j)
              - Ideal.div (∑ j : Fin 128, val_main_v32 (F := Ideal) x0 x1 x2 x3 x4 (ix2 p j)) c128)
            * (val_main_v32 (F := Ideal) x0 x1 x2 x3 x4 (ix2 p j)
              - Ideal.div (∑ j : Fin 128, val_main_v32 (F := Ideal) x0 x1 x2 x3 x4 (ix2 p j)) c128)) c128 := by
  rw [val_main_v43_apply, val_main_v41_apply, val_main_v42_apply, val_main_cst_9_apply, val_main_v40_apply,
    val_main_cst_8_apply, Ideal.hostDivf_def, Ideal.ofBits_def, Ideal.ofBits_def, Ideal.ofBits_zero_f32, zero_add, vec_v41]
  refine congrArg (fun t => Ideal.div t c128) (Finset.sum_congr rfl fun k _ => ?_)
  rw [ent_v40, val_main_v39_apply, val_main_v38_apply, val_main_v37_apply, col_v37, mean_v36, Ideal.mulf_def,
    Ideal.subf_def]

theorem stage_v57 :
    val_main_v57 (F := Ideal) x0 x1 x2 x3 x4 x5 x6
      = lnRelu (affine (val_main_v26 (F := Ideal) x0 x1 x2 x3) (val_main_v27 (F := Ideal) x2) (val_main_v30 (F := Ideal) x4))
          (val_main_v46 (F := Ideal) x5) (val_main_v54 (F := Ideal) x6) := by
  funext i
  obtain ⟨p, q, rfl⟩ : ∃ (p : Fin 100000) (q : Fin 128), i = ix2 p q := ⟨i 0, i 1, eq_ix2 i⟩
  rw [lnRelu_at, ← affine_v32]
  rw [val_main_v57_apply, val_main_v56_apply, val_main_v53_apply, val_main_v55_apply, val_main_v48_apply,
    val_main_v52_apply, val_main_v47_apply, val_main_v45_apply, val_main_v44_apply, val_main_v51_apply,
    val_main_v50_apply, val_main_v49_apply, val_main_cst_10_apply, val_main_call0_v0_apply, val_main_call0_cst_apply,
    col_v44, col_v52, row_v47, row_v55, mean_v36, var_v43,
    Ideal.maximumf_def, Ideal.addf_def, Ideal.addf_def, Ideal.mulf_def, Ideal.mulf_def, Ideal.subf_def,
    Ideal.hostUnary_rsqrt_def, Ideal.ofBits_def, Ideal.ofBits_def]

end layer1
/-! The reference's index functions at explicit coordinates (second hidden layer). -/

section idx2
variable (p : Fin 100000) (q k : Fin 128)
theorem col_v73 : idx_main_v73 (ix2 p q) = ix2 p (0 : Fin 1) := funext fun a => Fin.ext (by match a with | ⟨0, _⟩ => rfl | ⟨1, _⟩ => rfl)
theorem col_v82 : idx_main_v82 (ix2 p q) = ix2 p (0 : Fin 1) := funext fun a => Fin.ext (by match a with | ⟨0, _⟩ => rfl | ⟨1, _⟩ => rfl)
theorem col_v89 : idx_main_v89 (ix2 p q) = ix2 p (0 : Fin 1) := funext fun a => Fin.ext (by match a with | ⟨0, _⟩ => rfl | ⟨1, _⟩ => rfl)
theorem col_v97 : idx_main_v97 (ix2 p q) = ix2 p (0 : Fin 1) := funext fun a => Fin.ext (by match a with | ⟨0, _⟩ => rfl | ⟨1, _⟩ => rfl)
theorem row_v76 : idx_main_v76 (ix2 p q) = ix2 (0 : Fin 1) q := funext fun a => Fin.ext (by match a with | ⟨0, _⟩ => rfl | ⟨1, _⟩ => rfl)
theorem row_v92 : idx_main_v92 (ix2 p q) = ix2 (0 : Fin 1) q := funext fun a => Fin.ext (by match a with | ⟨0, _⟩ => rfl | ⟨1, _⟩ => rfl)
theorem row_v100 : idx_main_v100 (ix2 p q) = ix2 (0 : Fin 1) q := funext fun a => Fin.ext (by match a with | ⟨0, _⟩ => rfl | ⟨1, _⟩ => rfl)
theorem vec_v79 : idx_main_v79 (ix2 p (0 : Fin 1)) = ix1 p := funext fun a => Fin.ext (by match a with | ⟨0, _⟩ => rfl)
theorem vec_v86 : idx_main_v86 (ix2 p (0 : Fin 1)) = ix1 p := funext fun a => Fin.ext (by match a with | ⟨0, _⟩ => rfl)
theorem ent_v78 : idx_main_v78 (ix1 p) k = ix2 p k := funext fun a => Fin.ext (by match a with | ⟨0, _⟩ => rfl | ⟨1, _⟩ => rfl)
theorem ent_v85 : idx_main_v85 (ix1 p) k = ix2 p k := funext fun a => Fin.ext (by match a with | ⟨0, _⟩ => rfl | ⟨1, _⟩ => rfl)
end idx2

/-! The second hidden layer. -/

section layer2
variable (x0 : (⟨S100000x256, .f32⟩ : BufTy).Contents (Elt Ideal)) (x1 x2 : (⟨S1600000, .i32⟩ : BufTy).Contents (Elt Ideal))
  (x3 : (⟨S256x128, .f32⟩ : BufTy).Contents (Elt Ideal)) (x4 x5 x6 : (⟨S128, .f32⟩ : BufTy).Contents (Elt Ideal))
  (x7 : (⟨S128x128, .f32⟩ : BufTy).Contents (Elt Ideal)) (x8 x9 x10 : (⟨S128, .f32⟩ : BufTy).Contents (Elt Ideal))

theorem affine_v77 :
    val_main_v77 (F := Ideal) x0 x1 x2 x3 x4 x5 x6 x7 x8
      = affine (val_main_v71 (F := Ideal) x0 x1 x2 x3 x4 x5 x6 x7) (val_main_v72 (F := Ideal) x2) (val_main_v75 (F := Ideal) x8) := by
  funext i
  obtain ⟨p, q, rfl⟩ : ∃ (p : Fin 100000) (q : Fin 128), i = ix2 p q := ⟨i 0, i 1, eq_ix2 i⟩
  rw [val_main_v77_apply, val_main_v74_apply, val_main_v73_apply, val_main_v76_apply, affine_at, Ideal.addf_def,
    Ideal.mulf_def, col_v73, row_v76]

/-- the row mean: the row's sum divided by 128 -/
theorem mean_v81 (p : Fin 100000) :
    val_main_v81 (F := Ideal) x0 x1 x2 x3 x4 x5 x6 x7 x8 (ix2 p (0 : Fin 1))
      = Ideal.div (∑ j : Fin 128, val_main_v77 (F := Ideal) x0 x1 x2 x3 x4 x5 x6 x7 x8 (ix2 p j)) c128 := by
  rw [val_main_v81_apply, val_main_v79_apply, val_main_v80_apply, val_main_cst_15_apply, val_main_v78_apply,
    val_main_cst_14_apply, Ideal.hostDivf_def, Ideal.ofBits_def, Ideal.ofBits_def, Ideal.ofBits_zero_f32, zero_add, vec_v79]
  refine congrArg (fun t => Ideal.div t c128) (Finset.sum_congr rfl fun k _ => ?_)
  rw [ent_v78]

/-- the row variance: the sum of the squared deviations from the mean, divided by 128 -/
theorem var_v88 (p : Fin 100000) :
    val_main_v88 (F := Ideal) x0 x1 x2 x3 x4 x5 x6 x7 x8 (ix2 p (0 : Fin 1))
      = Ideal.div (∑ j : Fin 128,
          (val_main_v77 (F := Ideal) x0 x1 x2 x3 x4 x5 x6 x7 x8 (ix2 p j)
              - Ideal.div (∑ j : Fin 128, val_main_v77 (F := Ideal) x0 x1 x2 x3 x4 x5 x6 x7 x8 (ix2 p j)) c128)
            * (val_main_v77 (F := Ideal) x0 x1 x2 x3 x4 x5 x6 x7 x8 (ix2 p j)
              - Ideal.div (∑ j : Fin 128, val_main_v77 (F := Ideal) x0 x1 x2 x3 x4 x5 x6 x7 x8 (ix2 p j)) c128)) c128 := by
  rw [val_main_v88_apply, val_main_v86_apply, val_main_v87_apply, val_main_cst_17_apply, val_main_v85_apply,
    val_main_cst_16_apply, Ideal.hostDivf_def, Ideal.ofBits_def, Ideal.ofBits_def, Ideal.ofBits_zero_f32, zero_add, vec_v86]
  refine congrArg (fun t => Ideal.div t c128) (Finset.sum_congr rfl fun k _ => ?_)
  rw [ent_v85, val_main_v84_apply, val_main_v83_apply, val_main_v82_apply, col_v82, mean_v81, Ideal.mulf_def,
    Ideal.subf_def]

theorem stage_v102 :
    val_main_v102 (F := Ideal) x0 x1 x2 x3 x4 x5 x6 x7 x8 x9 x10
      = lnRelu (affine (val_main_v71 (F := Ideal) x0 x1 x2 x3 x4 x5 x6 x7) (val_main_v72 (F := Ideal) x2) (val_main_v75 (F := Ideal) x8))
          (val_main_v91 (F := Ideal) x9) (val_main_v99 (F := Ideal) x10) := by
  funext i
  obtain ⟨p, q, rfl⟩ : ∃ (p : Fin 100000) (q : Fin 128), i = ix2 p q := ⟨i 0, i 1, eq_ix2 i⟩
  rw [lnRelu_at, ← affine_v77]
  rw [val_main_v102_apply, val_main_v101_apply, val_main_v98_apply, val_main_v100_apply, val_main_v93_apply,
    val_main_v97_apply, val_main_v92_apply, val_main_v90_apply, val_main_v89_apply, val_main_v96_apply,
    val_main_v95_apply, val_main_v94_apply, val_main_cst_18_apply, val_main_call1_v0_apply, val_main_call1_cst_apply,
    col_v89, col_v97, row_v92, row_v100, mean_v81, var_v88,
    Ideal.maximumf_def, Ideal.addf_def, Ideal.addf_def, Ideal.mulf_def, Ideal.mulf_def, Ideal.subf_def,
    Ideal.hostUnary_rsqrt_def, Ideal.ofBits_def, Ideal.ofBits_def]

end layer2

end Cert.ReferenceIdeal.Hand

end
-- ==== Proof.RefStages.lean ====
/-
  The reference program is the network of the specification.

  The reference computes the three layers one operation at a time. Here its stages are grouped into the
  specification's building blocks: a row-scaled matrix product, an affine step after the neighbourhood
  sum, and a layer normalisation followed by the positive part. The neighbourhood sums and the degree
  normalisations are host scatters and gathers; they are carried as the functions named below and never opened.
-/
import proofs.«181965_j14688788152987_1_alg».proof.Proof.Gen.ReferenceIdeal.Read
import proofs.«181965_j14688788152987_1_alg».proof.Proof.Spec
import proofs.«181965_j14688788152987_1_alg».proof.Proof.RefLN
import Idealize.ShloMosaic.Lib.ValueIdx
import Idealize.ShloMosaic.PureOps.Ideal

noncomputable section

open scoped BigOperators

namespace Cert.ReferenceIdeal.Hand

open Cert.ReferenceIdeal Cert.ReferenceIdeal.Gen Cert.ReferenceIdeal.Read Idealize.ShloMosaic Idealize.ShloMosaic.ValueIdx Cert.GcnSpec

/-- the edges' sources as a column, a negative index counted from the end -/
def srcCol (x1 : IVec S1600000 32) : IVec S1600000x1 32 :=
  broadcastInDim S1600000x1 ![0] bcast_S1600000_S1600000x1_0 (select (cmpi .slt x1 (broadcastInDim S1600000 ![] bcast_S_S1600000 (constantI S_ 32 0#32))) (addi x1 (broadcastInDim S1600000 ![] bcast_S_S1600000 (constantI S_ 32 100000#32))) x1)

/-- the edges' targets as a column -/
def dstCol (x2 : IVec S1600000 32) : IVec S1600000x1 32 :=
  broadcastInDim S1600000x1 ![0] bcast_S1600000_S1600000x1_0 x2

/-- the neighbourhood sum on 128 columns: gather the sources' rows, add them into the targets' rows of a zero matrix -/
def agg128 (x1 x2 : IVec S1600000 32) (h : Mat 100000 128) : Mat 100000 128 :=
  Host.scatterAdd scatter_S100000x128_S1600000x1_S1600000x128_1_0_0_1 (broadcastInDim S100000x128 ![] bcast_S_S100000x128 (constant (F := Ideal) S_ .f32 0x00000000#32)) (dstCol x2) (Host.gather gather_S100000x128_S1600000x1_S1600000x128_1_0_n_n_0_1_1128 h (srcCol x1))

/-- the neighbourhood sum on 40 columns -/
def agg40 (x1 x2 : IVec S1600000 32) (h : Mat 100000 40) : Mat 100000 40 :=
  Host.scatterAdd scatter_S100000x40_S1600000x1_S1600000x40_1_0_0_1 (broadcastInDim S100000x40 ![] bcast_S_S100000x40 (constant (F := Ideal) S_ .f32 0x00000000#32)) (dstCol x2) (Host.gather gather_S100000x40_S1600000x1_S1600000x40_1_0_n_n_0_1_140 h (srcCol x1))

/-- rsqrt of max(degree, 1) as a one-column matrix; the degree counts the occurrences of a node among the indices x -/
def degNorm (x : IVec S1600000 32) : Mat 100000 1 :=
  broadcastInDim S100000x1 ![0] bcast_S100000_S100000x1_0 (Host.rsqrt (maximumf (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 x) (broadcastInDim S1600000 ![] bcast_S_S1600000 (constant (F := Ideal) S_ .f32 0x3F800000#32))) (broadcastInDim S100000 ![] bcast_S_S100000 (constant (F := Ideal) S_ .f32 0x3F800000#32))))

/-- a vector as a one-row matrix -/
def row128 (v : FVec Ideal S128 .f32) : Mat 1 128 := broadcastInDim S1x128 ![1] bcast_S128_S1x128_1 v

/-- a vector as a one-row matrix -/
def row40 (v : FVec Ideal S40 .f32) : Mat 1 40 := broadcastInDim S1x40 ![1] bcast_S40_S1x40_1 v

/-! The specification's building blocks read at an explicit index. -/

theorem scaleMatmul_entry {R K N : Nat} (h : Mat R K) (s : Mat R 1) (W : Mat K N) (p : Fin R) (q : Fin N) :
    scaleMatmul h s W (ix2 p q) = ∑ k : Fin K, (h (ix2 p k) * s (ix2 p (0 : Fin 1))) * W (ix2 k q) := rfl

theorem affine_entry {R N : Nat} (x : Mat R N) (s : Mat R 1) (b : Mat 1 N) (p : Fin R) (q : Fin N) :
    affine x s b (ix2 p q) = x (ix2 p q) * s (ix2 p (0 : Fin 1)) + b (ix2 (0 : Fin 1) q) := rfl

/-! The reference's index functions at explicit coordinates: a broadcast of a one-column matrix along the
    columns reads column 0 of the same row; a broadcast of a one-row matrix along the rows reads row 0 of
    the same column. -/

theorem col_v14 (p : Fin 100000) (q : Fin 256) : idx_main_v14 (ix2 p q) = ix2 p (0 : Fin 1) :=
  funext fun a => Fin.ext (by match a with | ⟨0, _⟩ => rfl | ⟨1, _⟩ => rfl)
theorem col_v59 (p : Fin 100000) (q : Fin 128) : idx_main_v59 (ix2 p q) = ix2 p (0 : Fin 1) :=
  funext fun a => Fin.ext (by match a with | ⟨0, _⟩ => rfl | ⟨1, _⟩ => rfl)
theorem col_v104 (p : Fin 100000) (q : Fin 128) : idx_main_v104 (ix2 p q) = ix2 p (0 : Fin 1) :=
  funext fun a => Fin.ext (by match a with | ⟨0, _⟩ => rfl | ⟨1, _⟩ => rfl)
theorem col_v118 (p : Fin 100000) (q : Fin 40) : idx_main_v118 (ix2 p q) = ix2 p (0 : Fin 1) :=
  funext fun a => Fin.ext (by match a with | ⟨0, _⟩ => rfl | ⟨1, _⟩ => rfl)
theorem row_v121 (p : Fin 100000) (q : Fin 40) : idx_main_v121 (ix2 p q) = ix2 (0 : Fin 1) q :=
  funext fun a => Fin.ext (by match a with | ⟨0, _⟩ => rfl | ⟨1, _⟩ => rfl)

/-! Stage 1: the features, scaled by the source normalisation, times the first weight matrix. -/

theorem stage_v16 (x0 : (⟨S100000x256, .f32⟩ : BufTy).Contents (Elt Ideal)) (x1 : (⟨S1600000, .i32⟩ : BufTy).Contents (Elt Ideal))
    (x3 : (⟨S256x128, .f32⟩ : BufTy).Contents (Elt Ideal)) :
    val_main_v16 (F := Ideal) x0 x1 x3 = scaleMatmul x0 (val_main_v13 (F := Ideal) x1) x3 := by
  funext i
  obtain ⟨p, q, rfl⟩ : ∃ (p : Fin 100000) (q : Fin 128), i = ix2 p q := ⟨i 0, i 1, eq_ix2 i⟩
  rw [val_main_v16_apply, scaleMatmul_entry]
  refine Finset.sum_congr rfl fun k _ => ?_
  rw [val_main_v15_apply, val_main_v14_apply, Ideal.mulf_def]
  have el : lidx_main_v16 (ix2 p q) k = ix2 p k :=
    funext fun a => Fin.ext (by match a with | ⟨0, _⟩ => rfl | ⟨1, _⟩ => rfl)
  have er : ridx_main_v16 (ix2 p q) k = ix2 k q :=
    funext fun a => Fin.ext (by match a with | ⟨0, _⟩ => rfl | ⟨1, _⟩ => rfl)
  rw [el, er, col_v14]

/-! Stage 3: the first hidden layer, scaled by the source normalisation, times the second weight matrix. -/

theorem stage_v61 (x0 : (⟨S100000x256, .f32⟩ : BufTy).Contents (Elt Ideal)) (x1 x2 : (⟨S1600000, .i32⟩ : BufTy).Contents (Elt Ideal))
    (x3 : (⟨S256x128, .f32⟩ : BufTy).Contents (Elt Ideal)) (x4 x5 x6 : (⟨S128, .f32⟩ : BufTy).Contents (Elt Ideal))
    (x7 : (⟨S128x128, .f32⟩ : BufTy).Contents (Elt Ideal)) :
    val_main_v61 (F := Ideal) x0 x1 x2 x3 x4 x5 x6 x7
      = scaleMatmul (val_main_v57 (F := Ideal) x0 x1 x2 x3 x4 x5 x6) (val_main_v58 (F := Ideal) x1) x7 := by
  funext i
  obtain ⟨p, q, rfl⟩ : ∃ (p : Fin 100000) (q : Fin 128), i = ix2 p q := ⟨i 0, i 1, eq_ix2 i⟩
  rw [val_main_v61_apply, scaleMatmul_entry]
  refine Finset.sum_congr rfl fun k _ => ?_
  rw [val_main_v60_apply, val_main_v59_apply, Ideal.mulf_def]
  have el : lidx_main_v61 (ix2 p q) k = ix2 p k :=
    funext fun a => Fin.ext (by match a with | ⟨0, _⟩ => rfl | ⟨1, _⟩ => rfl)
  have er : ridx_main_v61 (ix2 p q) k = ix2 k q :=
    funext fun a => Fin.ext (by match a with | ⟨0, _⟩ => rfl | ⟨1, _⟩ => rfl)
  rw [el, er, col_v59]

/-! Stage 5: the second hidden layer, scaled by the source normalisation, times the third weight matrix. -/

theorem stage_v106 (x0 : (⟨S100000x256, .f32⟩ : BufTy).Contents (Elt Ideal)) (x1 x2 : (⟨S1600000, .i32⟩ : BufTy).Contents (Elt Ideal))
    (x3 : (⟨S256x128, .f32⟩ : BufTy).Contents (Elt Ideal)) (x4 x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S128x40, .f32⟩ : BufTy).Contents (Elt Ideal)) :
    val_main_v106 (F := Ideal) x0 x1 x2 x3 x4 x5 x6 x7 x8 x9 x10 x11
      = scaleMatmul (val_main_v102 (F := Ideal) x0 x1 x2 x3 x4 x5 x6 x7 x8 x9 x10) (val_main_v103 (F := Ideal) x1) x11 := by
  funext i
  obtain ⟨p, q, rfl⟩ : ∃ (p : Fin 100000) (q : Fin 40), i = ix2 p q := ⟨i 0, i 1, eq_ix2 i⟩
  rw [val_main_v106_apply, scaleMatmul_entry]
  refine Finset.sum_congr rfl fun k _ => ?_
  rw [val_main_v105_apply, val_main_v104_apply, Ideal.mulf_def]
  have el : lidx_main_v106 (ix2 p q) k = ix2 p k :=
    funext fun a => Fin.ext (by match a with | ⟨0, _⟩ => rfl | ⟨1, _⟩ => rfl)
  have er : ridx_main_v106 (ix2 p q) k = ix2 k q :=
    funext fun a => Fin.ext (by match a with | ⟨0, _⟩ => rfl | ⟨1, _⟩ => rfl)
  rw [el, er, col_v104]

/-! Stage 6: the last aggregate, scaled by the target normalisation, plus the last offset. -/

theorem stage_v122 (x0 : (⟨S100000x256, .f32⟩ : BufTy).Contents (Elt Ideal)) (x1 x2 : (⟨S1600000, .i32⟩ : BufTy).Contents (Elt Ideal))
    (x3 : (⟨S256x128, .f32⟩ : BufTy).Contents (Elt Ideal)) (x4 x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S128x40, .f32⟩ : BufTy).Contents (Elt Ideal)) (x12 : (⟨S40, .f32⟩ : BufTy).Contents (Elt Ideal)) :
    val_main_v122 (F := Ideal) x0 x1 x2 x3 x4 x5 x6 x7 x8 x9 x10 x11 x12
      = affine (val_main_v116 (F := Ideal) x0 x1 x2 x3 x4 x5 x6 x7 x8 x9 x10 x11) (val_main_v117 (F := Ideal) x2)
          (val_main_v120 (F := Ideal) x12) := by
  funext i
  obtain ⟨p, q, rfl⟩ : ∃ (p : Fin 100000) (q : Fin 40), i = ix2 p q := ⟨i 0, i 1, eq_ix2 i⟩
  rw [val_main_v122_apply, val_main_v119_apply, val_main_v118_apply, val_main_v121_apply, affine_entry, Ideal.addf_def,
    Ideal.mulf_def, col_v118, row_v121]

/-! The neighbourhood sums and the host-side constants are the functions named above: on both sides short
    terms of constants, broadcasts, one gather and one scatter, with the layer's matrix a variable. -/

theorem v26_eq (x0 : (⟨S100000x256, .f32⟩ : BufTy).Contents (Elt Ideal)) (x1 x2 : (⟨S1600000, .i32⟩ : BufTy).Contents (Elt Ideal))
    (x3 : (⟨S256x128, .f32⟩ : BufTy).Contents (Elt Ideal)) :
    val_main_v26 (F := Ideal) x0 x1 x2 x3 = agg128 x1 x2 (val_main_v16 (F := Ideal) x0 x1 x3) := by
  unfold val_main_v26 val_main_v23
  generalize val_main_v16 (F := Ideal) x0 x1 x3 = h
  rfl

theorem v71_eq (x0 : (⟨S100000x256, .f32⟩ : BufTy).Contents (Elt Ideal)) (x1 x2 : (⟨S1600000, .i32⟩ : BufTy).Contents (Elt Ideal))
    (x3 : (⟨S256x128, .f32⟩ : BufTy).Contents (Elt Ideal)) (x4 x5 x6 : (⟨S128, .f32⟩ : BufTy).Contents (Elt Ideal))
    (x7 : (⟨S128x128, .f32⟩ : BufTy).Contents (Elt Ideal)) :
    val_main_v71 (F := Ideal) x0 x1 x2 x3 x4 x5 x6 x7
      = agg128 x1 x2 (val_main_v61 (F := Ideal) x0 x1 x2 x3 x4 x5 x6 x7) := by
  unfold val_main_v71 val_main_v68
  generalize val_main_v61 (F := Ideal) x0 x1 x2 x3 x4 x5 x6 x7 = h
  rfl

theorem v116_eq (x0 : (⟨S100000x256, .f32⟩ : BufTy).Contents (Elt Ideal)) (x1 x2 : (⟨S1600000, .i32⟩ : BufTy).Contents (Elt Ideal))
    (x3 : (⟨S256x128, .f32⟩ : BufTy).Contents (Elt Ideal)) (x4 x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S128x40, .f32⟩ : BufTy).Contents (Elt Ideal)) :
    val_main_v116 (F := Ideal) x0 x1 x2 x3 x4 x5 x6 x7 x8 x9 x10 x11
      = agg40 x1 x2 (val_main_v106 (F := Ideal) x0 x1 x2 x3 x4 x5 x6 x7 x8 x9 x10 x11) := by
  unfold val_main_v116 val_main_v113
  generalize val_main_v106 (F := Ideal) x0 x1 x2 x3 x4 x5 x6 x7 x8 x9 x10 x11 = h
  rfl

theorem v13_eq (x1 : (⟨S1600000, .i32⟩ : BufTy).Contents (Elt Ideal)) : val_main_v13 (F := Ideal) x1 = degNorm x1 := rfl
theorem v58_eq (x1 : (⟨S1600000, .i32⟩ : BufTy).Contents (Elt Ideal)) : val_main_v58 (F := Ideal) x1 = degNorm x1 := rfl
theorem v103_eq (x1 : (⟨S1600000, .i32⟩ : BufTy).Contents (Elt Ideal)) : val_main_v103 (F := Ideal) x1 = degNorm x1 := rfl
theorem v27_eq (x2 : (⟨S1600000, .i32⟩ : BufTy).Contents (Elt Ideal)) : val_main_v27 (F := Ideal) x2 = degNorm x2 := rfl
theorem v72_eq (x2 : (⟨S1600000, .i32⟩ : BufTy).Contents (Elt Ideal)) : val_main_v72 (F := Ideal) x2 = degNorm x2 := rfl
theorem v117_eq (x2 : (⟨S1600000, .i32⟩ : BufTy).Contents (Elt Ideal)) : val_main_v117 (F := Ideal) x2 = degNorm x2 := rfl
theorem v30_eq (v : (⟨S128, .f32⟩ : BufTy).Contents (Elt Ideal)) : val_main_v30 (F := Ideal) v = row128 v := rfl
theorem v46_eq (v : (⟨S128, .f32⟩ : BufTy).Contents (Elt Ideal)) : val_main_v46 (F := Ideal) v = row128 v := rfl
theorem v54_eq (v : (⟨S128, .f32⟩ : BufTy).Contents (Elt Ideal)) : val_main_v54 (F := Ideal) v = row128 v := rfl
theorem v75_eq (v : (⟨S128, .f32⟩ : BufTy).Contents (Elt Ideal)) : val_main_v75 (F := Ideal) v = row128 v := rfl
theorem v91_eq (v : (⟨S128, .f32⟩ : BufTy).Contents (Elt Ideal)) : val_main_v91 (F := Ideal) v = row128 v := rfl
theorem v99_eq (v : (⟨S128, .f32⟩ : BufTy).Contents (Elt Ideal)) : val_main_v99 (F := Ideal) v = row128 v := rfl
theorem v120_eq (v : (⟨S40, .f32⟩ : BufTy).Contents (Elt Ideal)) : val_main_v120 (F := Ideal) v = row40 v := rfl

/-! The whole reference: its last stage is the network of the specification, with the neighbourhood sums,
    the two degree normalisations and the one-row forms of the vectors as named above. -/

theorem ref_net (x0 : (⟨S100000x256, .f32⟩ : BufTy).Contents (Elt Ideal)) (x1 x2 : (⟨S1600000, .i32⟩ : BufTy).Contents (Elt Ideal))
    (x3 : (⟨S256x128, .f32⟩ : BufTy).Contents (Elt Ideal)) (x4 x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S128x40, .f32⟩ : BufTy).Contents (Elt Ideal)) (x12 : (⟨S40, .f32⟩ : BufTy).Contents (Elt Ideal)) :
    val_main_v122 (F := Ideal) x0 x1 x2 x3 x4 x5 x6 x7 x8 x9 x10 x11 x12
      = Cert.GcnSpec.net (agg128 x1 x2) (agg40 x1 x2) (degNorm x1) (degNorm x2) x0 x3 (row128 x4) (row128 x5) (row128 x6)
          x7 (row128 x8) (row128 x9) (row128 x10) x11 (row40 x12) := by
  unfold Cert.GcnSpec.net
  rw [stage_v122, v116_eq, stage_v106, stage_v102, v71_eq, stage_v61, stage_v57, v26_eq, stage_v16,
    v13_eq, v58_eq, v103_eq, v27_eq, v72_eq, v117_eq, v30_eq, v46_eq, v54_eq, v75_eq, v91_eq, v99_eq, v120_eq]

end Cert.ReferenceIdeal.Hand

end
-- ==== Proof.Bridge.lean ====
/-
  The two programs spell the same host operations with records of their own; this module identifies them, so that the
  kernel's network and the reference's network are literally one term.
  * The aggregations, the degree normalisations: the same operations over equal dimension records.
  * A vector as a one-row matrix: the kernel reshapes [n] to [1, n], the reference broadcasts along axis 1; both put
    entry j of the vector at (0, j).
-/
import proofs.«181965_j14688788152987_1_alg».proof.Proof.KChain
import proofs.«181965_j14688788152987_1_alg».proof.Proof.RefStages
import Idealize.ShloMosaic.Lib.Pipeline.Value

set_option maxRecDepth 16384

noncomputable section

namespace Cert.Proof.Bridge

open Idealize.ShloMosaic Cert.GcnSpec
open Cert.KernelIdeal.Hand

/-- The neighbourhood sum on 128 columns is one function in both programs. -/
theorem agg128_eq (x1 x2 : IVec ⟨1, ![1600000]⟩ 32) (h : Mat 100000 128) :
    aggK128 x1 x2 h = Cert.ReferenceIdeal.Hand.agg128 x1 x2 h := rfl
/-- And on 40 columns. -/
theorem agg40_eq (x1 x2 : IVec ⟨1, ![1600000]⟩ 32) (h : Mat 100000 40) :
    aggK40 x1 x2 h = Cert.ReferenceIdeal.Hand.agg40 x1 x2 h := rfl
/-- The degree normalisation is one function in both programs. -/
theorem degNorm_eq (x : IVec ⟨1, ![1600000]⟩ 32) : degNormK x = Cert.ReferenceIdeal.Hand.degNorm x := rfl

/-- A vector reshaped to one row is the vector broadcast along the columns: entry (0, j) is entry j. -/
theorem row_eq {n : Nat} (v : FVec Ideal ⟨1, ![n]⟩ .f32) (hn : n ≠ 1) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ v hs = broadcastInDim ⟨2, ![1, n]⟩ ![1] hb v := by
  funext j
  rw [shapeCast_addUnit_apply (![n]) v hs j]
  refine (broadcastInDim_apply ![1] hb v j (fun a => j a.succ) (fun a => ?_)).symm
  match a with
  | ⟨0, _⟩ =>
    show (j 1).val = if n = 1 then 0 else (j 1).val
    rw [if_neg hn]

theorem row128_eq (v : FVec Ideal ⟨1, ![128]⟩ .f32) : rowK128 v = Cert.ReferenceIdeal.Hand.row128 v :=
  row_eq v (by decide) _ _
theorem row40_eq (v : FVec Ideal ⟨1, ![40]⟩ .f32) : rowK40 v = Cert.ReferenceIdeal.Hand.row40 v :=
  row_eq v (by decide) _ _

/-- The network over the kernel's spelling of the glue is the network over the reference's. -/
theorem net_eq (x0 : Mat 100000 256) (x1 x2 : IVec ⟨1, ![1600000]⟩ 32) (x3 : Mat 256 128) (x4 x5 x6 : FVec Ideal ⟨1, ![128]⟩ .f32)
    (x7 : Mat 128 128) (x8 x9 x10 : FVec Ideal ⟨1, ![128]⟩ .f32) (x11 : Mat 128 40) (x12 : FVec Ideal ⟨1, ![40]⟩ .f32) :
    net (aggK128 x1 x2) (aggK40 x1 x2) (degNormK x1) (degNormK x2) x0 x3 (rowK128 x4) (rowK128 x5) (rowK128 x6)
        x7 (rowK128 x8) (rowK128 x9) (rowK128 x10) x11 (rowK40 x12)
      = net (Cert.ReferenceIdeal.Hand.agg128 x1 x2) (Cert.ReferenceIdeal.Hand.agg40 x1 x2)
          (Cert.ReferenceIdeal.Hand.degNorm x1) (Cert.ReferenceIdeal.Hand.degNorm x2) x0 x3
          (Cert.ReferenceIdeal.Hand.row128 x4) (Cert.ReferenceIdeal.Hand.row128 x5) (Cert.ReferenceIdeal.Hand.row128 x6)
          x7 (Cert.ReferenceIdeal.Hand.row128 x8) (Cert.ReferenceIdeal.Hand.row128 x9) (Cert.ReferenceIdeal.Hand.row128 x10)
          x11 (Cert.ReferenceIdeal.Hand.row40 x12) := by
  have h1 : aggK128 x1 x2 = Cert.ReferenceIdeal.Hand.agg128 x1 x2 := funext (agg128_eq x1 x2)
  have h2 : aggK40 x1 x2 = Cert.ReferenceIdeal.Hand.agg40 x1 x2 := funext (agg40_eq x1 x2)
  rw [h1, h2, degNorm_eq x1, degNorm_eq x2, row128_eq x4, row128_eq x5, row128_eq x6, row128_eq x8, row128_eq x9,
    row128_eq x10, row40_eq x12]

end Cert.Proof.Bridge

end
-- ==== Proof.lean ====
/-
  The certificate's five claims for a three-layer graph convolution: a tiled kernel (six regions among host gathers and
  scatter-adds) against its array reference.

  * The two kernel programs' frames are the generated ones; the reference's frame is its generated run with the result
    dropped; the idealization rewrote nothing, so nothing is to be preserved.
  * Equal results at the ideal values. Both programs compute
        out = affine (agg (scaleMatmul h2 on W2)) inn b2,   h(k+1) = lnRelu (affine (agg (scaleMatmul hk on Wk)) inn bk) gk btk,
    with h0 the features, agg the neighbourhood sum over the edges and on / inn the source- and target-degree
    normalisations (Spec.lean's net). The kernel computes scaleMatmul, affine and lnRelu block by block over 20 blocks
    of 5000 rows; each is row-wise, so a block of the array's function is the function of the blocks, and the blocks
    cover the array (the six region modules). The reference computes them on whole arrays (the reference-stage
    modules). The aggregations and normalisations are the same host operations on both sides (Bridge.lean). No
    arithmetic law beyond 0 + x = x is used, so finiteness of the inputs is never needed.
-/
import proofs.«181965_j14688788152987_1_alg».proof.Defs
import proofs.«181965_j14688788152987_1_alg».proof.Proof.Gen.Kernel
import proofs.«181965_j14688788152987_1_alg».proof.Proof.Gen.Kernel.Skeleton
import proofs.«181965_j14688788152987_1_alg».proof.Proof.Gen.Kernel.Launch
import proofs.«181965_j14688788152987_1_alg».proof.Proof.Gen.Kernel.Points
import proofs.«181965_j14688788152987_1_alg».proof.Proof.Gen.Kernel.Frame
import proofs.«181965_j14688788152987_1_alg».proof.Proof.Gen.KernelIdeal
import proofs.«181965_j14688788152987_1_alg».proof.Proof.Gen.KernelIdeal.Skeleton
import proofs.«181965_j14688788152987_1_alg».proof.Proof.Gen.KernelIdeal.Launch
import proofs.«181965_j14688788152987_1_alg».proof.Proof.Gen.KernelIdeal.Points
import proofs.«181965_j14688788152987_1_alg».proof.Proof.Gen.KernelIdeal.Frame
import proofs.«181965_j14688788152987_1_alg».proof.Proof.Gen.ReferenceIdeal
import proofs.«181965_j14688788152987_1_alg».proof.Proof.Gen.Pre_finite_inputs
import proofs.«181965_j14688788152987_1_alg».proof.Proof.Gen.ReferenceIdeal.Run
import proofs.«181965_j14688788152987_1_alg».proof.Proof.Gen.ReferenceIdeal.Read
import proofs.«181965_j14688788152987_1_alg».proof.Proof.KRun
import proofs.«181965_j14688788152987_1_alg».proof.Proof.KChain
import proofs.«181965_j14688788152987_1_alg».proof.Proof.RefStages
import proofs.«181965_j14688788152987_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments in their result
    buffers. -/
theorem algebraic : Cert.algebraic_KernelIdeal_ReferenceIdeal := by
  intro m ρ m' ρ' _ hagree
  refine ⟨fun c => Cert.KernelIdeal.Gen.W10 m ρ c (Proc.devRef .tc Cert.KernelIdeal.main_v59),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v122 m' c = Cert.KernelIdeal.Gen.W10 m ρ c (Proc.devRef .tc Cert.KernelIdeal.main_v59)
  obtain ⟨e0, e1, e2, e3, e4, e5, e6, e7, e8, e9, e10, e11, e12⟩ := hagree c
  rw [Cert.ReferenceIdeal.Read.val_main_v122_eq, Cert.ReferenceIdeal.Hand.ref_net, Cert.KernelIdeal.Hand.kernel_net,
    e0, e1, e2, e3, e4, e5, e6, e7, e8, e9, e10, e11, e12]
  exact (Cert.Proof.Bridge.net_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
